-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S16x64 .f32) (main_arg9 : FVec F S64 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S128x16 .f32) (main_arg7 : FVec F S16 .f32) (main_arg8 : FVec F S16x64 .f32) (main_arg9 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) (main_arg6 : FVec F S128x16 .f32) (main_arg7 : FVec F S16 .f32) (main_arg8 : FVec F S16x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x16 : Shape := ⟨2, ![1, 16]⟩
abbrev S1x64 : Shape := ⟨2, ![1, 64]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S100000x64 : Shape := ⟨2, ![100000, 64]⟩
abbrev S5000x64 : Shape := ⟨2, ![5000, 64]⟩

abbrev nBuf : Space → Nat
  | .hbm => 67
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S16x64, .f32⟩
  | .hbm, ⟨9, _⟩ => ⟨S64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x16, .f32⟩
  | .hbm, ⟨33, _⟩ => ⟨S1x16, .f32⟩
  | .hbm, ⟨34, _⟩ => ⟨S1x64, .f32⟩
  | .hbm, ⟨35, _⟩ => ⟨S1x64, .f32⟩
  | .hbm, ⟨36, _⟩ => ⟨S100000x16, .f32⟩
  | .hbm, ⟨37, _⟩ => ⟨S100000x16, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000x16, .f32⟩
  | .hbm, ⟨47, _⟩ => ⟨S_, .f32⟩
  | .hbm, ⟨48, _⟩ => ⟨S100000x16, .f32⟩
  | .hbm, ⟨49, _⟩ => ⟨S3300000x1, .i32⟩
  | .hbm, ⟨50, _⟩ => ⟨S100000x16, .f32⟩
  | .hbm, ⟨51, _⟩ => ⟨S100000x16, .f32⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S128x16, .f32⟩
  | .local _ .vmem, ⟨4, _⟩ => ⟨S1x16, .f32⟩
  | .local _ .vmem, ⟨5, _⟩ => ⟨S5000x1, .f32⟩
  | .local _ .vmem, ⟨6, _⟩ => ⟨S5000x1, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | .local _ .vmem, ⟨18, _⟩ => ⟨S16x64, .f32⟩
  | .local _ .vmem, ⟨19, _⟩ => ⟨S1x64, .f32⟩
  | .local _ .vmem, ⟨20, _⟩ => ⟨S5000x16, .f32⟩
  | .local _ .vmem, ⟨21, _⟩ => ⟨S5000x16, .f32⟩
  | .local _ .vmem, ⟨22, _⟩ => ⟨S5000x64, .f32⟩
  | .local _ .vmem, ⟨23, _⟩ => ⟨S5000x64, .f32⟩
  | .local _ .vmem, ⟨24, _⟩ => ⟨S5000x16, .f32⟩
  | .local _ .vmem, ⟨25, _⟩ => ⟨S5000x16, .f32⟩
  | .local _ .vmem, ⟨26, _⟩ => ⟨S5000x1, .f32⟩
  | .local _ .vmem, ⟨27, _⟩ => ⟨S5000x1, .f32⟩
  | .local _ .vmem, ⟨28, _⟩ => ⟨S16x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  shapeCasts_S16_S1x16 : S16.ShapeCasts S1x16
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S100000x16 : S_.BroadcastsInDim S100000x16 (![] : Fin 0 → Fin S100000x16.rank)
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S5000x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S5000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_0) S5000x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v41) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S1x16 : Shape := ⟨2, ![1, 16]⟩
abbrev S_ : Shape := ⟨0, ![]⟩
abbrev S3300000x1 : Shape := ⟨2, ![3300000, 1]⟩
abbrev S3300000x16 : Shape := ⟨2, ![3300000, 16]⟩
abbrev S100000x64 : Shape := ⟨2, ![100000, 64]⟩
abbrev S1x64 : Shape := ⟨2, ![1, 64]⟩
abbrev S3300000x64 : Shape := ⟨2, ![3300000, 64]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x64, .f32⟩
  | 5 => ⟨S64, .f32⟩
  | 6 => ⟨S128x16, .f32⟩
  | 7 => ⟨S16, .f32⟩
  | 8 => ⟨S16x64, .f32⟩
  | 9 => ⟨S64, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S100000x16, .f32⟩
  | 18 => ⟨S1x16, .f32⟩
  | 19 => ⟨S100000x16, .f32⟩
  | 20 => ⟨S100000x16, .f32⟩
  | 21 => ⟨S100000x16, .f32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x1, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S100000x16, .f32⟩
  | 73 => ⟨S100000x16, .f32⟩
  | 74 => ⟨S_, .f32⟩
  | 75 => ⟨S100000x16, .f32⟩
  | 76 => ⟨S100000x16, .f32⟩
  | 77 => ⟨S100000x16, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x128, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call3_cst : Ref sig .tc := ⟨.hbm, 135, rfl⟩
abbrev main_call3_v0 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel's run with its RESULT named. The program is three pipelined regions among five stretches of
  host operations; the memory at each boundary is a fold from the launch memory (`W0` … `W8`: a stretch applies its
  operations, a region replaces its arrays by what its write-backs leave). At the end every unscoped buffer holds its
  `W8` contents: the result buffer `main_v42` among them, and each argument its launch contents.
-/
import proofs.«150358_j45518063403398_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at its contents after
    the last region (`W8`) and the argument arrays as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.Graph.lean ====
/-
  The graph pieces both programs share, and the reference's two layers, as named functions of whole arrays over the
  extended reals (3200000 edges plus one self loop per node: 3300000 index words; 100000 nodes).

    rowv, colv   the source and target index words: row 0 / row 1 of the edge array followed by 0, 1, …, 99999
    normIdx v    an index word read the way array indexing reads it: a negative word has 100000 added
    deg          the number of index words of colv equal to n, as a float sum of ones into zeros
    isq          deg^(-1/2) where deg > 0, else 0
    nrm          per edge: isq at the (clamped) source times isq at the (clamped) target
    aggNorm feat the rows feat[source e] · nrm e summed into the target's row, from zero
    refHidden    max (aggNorm (x·W1) + b1) 0 + (x·tW1 + tb1)
    refOut       max (aggNorm (h·W2) + b2) 0 + (h·tW2 + tb2),  h = refHidden
    aggPlain feat  the rows feat[source e] summed into the target's row, from zero (no per-edge factor)
-/
import proofs.«150358_j45518063403398_2_alg».proof.Proof.Gen.ReferenceIdeal
import Idealize.ShloMosaic.PureOps.Ideal.Laws

noncomputable section

namespace Cert.Gcn

open Cert.ReferenceIdeal Cert.ReferenceIdeal.Facts₀ Cert.ReferenceIdeal.Facts Idealize.ShloMosaic

variable (ei : IVec S2x3200000 32)

/-- The source index words. -/
def rowv : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The target index words. -/
def colv : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- An index word as array indexing reads it: a negative word has the number of nodes added. -/
def normIdx (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- A length-3300000 vector as a column. -/
def asCol {α : Type} (v : S3300000.Idx → α) : S3300000x1.Idx → α :=
  broadcastInDim S3300000x1 ![0] bcast_S3300000_S3300000x1_0 v

/-- The in-degree, self loop included: ones summed into zeros at the target words. -/
def deg : FVec Ideal S100000 .f32 :=
  Host.scatterAdd (F := Ideal) scatter_S100000_S3300000x1_S3300000_n_0_0_1 (broadcastInDim S100000 ![] bcast_S_S100000 (constant S_ .f32 0x00000000#32)) (asCol (colv ei)) (broadcastInDim S3300000 ![] bcast_S_S3300000 (constant S_ .f32 0x3F800000#32))

/-- The inverse square root of the degree where it is positive, zero elsewhere. -/
def isq : FVec Ideal S100000 .f32 :=
  select (cmpf (F := Ideal) .ogt (deg ei) (broadcastInDim S100000 ![] bcast_S_S100000 (constant S_ .f32 0x00000000#32))) (Host.rsqrt (deg ei)) (broadcastInDim S100000 ![] bcast_S_S100000 (id (constant S_ .f32 0x00000000#32)))

/-- The symmetric normalization of an edge. -/
def nrm : FVec Ideal S3300000 .f32 :=
  mulf (Host.gather gather_S100000_S3300000x1_S3300000_n_0_n_n_0_1_1 (isq ei) (asCol (normIdx (rowv ei)))) (Host.gather gather_S100000_S3300000x1_S3300000_n_0_n_n_0_1_1 (isq ei) (asCol (normIdx (colv ei))))

/-- The normalized aggregation of 16 columns. -/
def aggNorm16 (feat : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32)) (asCol (colv ei)) (mulf (Host.gather gather_S100000x16_S3300000x1_S3300000x16_1_0_n_n_0_1_116 feat (asCol (normIdx (rowv ei)))) (broadcastInDim S3300000x16 ![0, 1] bcast_S3300000x1_S3300000x16_0_1 (asCol (nrm ei))))

/-- The normalized aggregation of 64 columns. -/
def aggNorm64 (feat : FVec Ideal S100000x64 .f32) : FVec Ideal S100000x64 .f32 :=
  Host.scatterAdd scatter_S100000x64_S3300000x1_S3300000x64_1_0_0_1 (broadcastInDim S100000x64 ![] bcast_S_S100000x64 (constant S_ .f32 0x00000000#32)) (asCol (colv ei)) (mulf (Host.gather gather_S100000x64_S3300000x1_S3300000x64_1_0_n_n_0_1_164 feat (asCol (normIdx (rowv ei)))) (broadcastInDim S3300000x64 ![0, 1] bcast_S3300000x1_S3300000x64_0_1 (asCol (nrm ei))))

/-- The plain aggregation of 16 columns: no per-edge factor. -/
def aggPlain (feat : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32)) (asCol (colv ei)) (Host.gather gather_S100000x16_S3300000x1_S3300000x16_1_0_n_n_0_1_116 feat (asCol (normIdx (rowv ei))))

variable (x : FVec Ideal S100000x128 .f32) (W1 : FVec Ideal S128x16 .f32) (b1 : FVec Ideal S16 .f32)
  (W2 : FVec Ideal S16x64 .f32) (b2 : FVec Ideal S64 .f32) (tW1 : FVec Ideal S128x16 .f32) (tb1 : FVec Ideal S16 .f32)
  (tW2 : FVec Ideal S16x64 .f32) (tb2 : FVec Ideal S64 .f32)

/-- The reference's hidden features. -/
def refHidden : FVec Ideal S100000x16 .f32 :=
  addf (maximumf (addf (aggNorm16 ei (Host.dotGeneral dot_S100000x128_S128x16_S100000x16_1_0_0_1_n_n none x W1)) (broadcastInDim S100000x16 ![0, 1] bcast_S1x16_S100000x16_0_1 (broadcastInDim S1x16 ![1] bcast_S16_S1x16_1 b1))) (broadcastInDim S100000x16 ![] bcast_S_S100000x16 (constant S_ .f32 0x00000000#32))) (addf (Host.dotGeneral dot_S100000x128_S128x16_S100000x16_1_0_0_1_n_n none x tW1) (broadcastInDim S100000x16 ![0, 1] bcast_S1x16_S100000x16_0_1 (broadcastInDim S1x16 ![1] bcast_S16_S1x16_1 tb1)))

/-- The reference's result. -/
def refOut : FVec Ideal S100000x64 .f32 :=
  addf (maximumf (addf (aggNorm64 ei (Host.dotGeneral dot_S100000x16_S16x64_S100000x64_1_0_0_1_n_n none (refHidden ei x W1 b1 tW1 tb1) W2)) (broadcastInDim S100000x64 ![0, 1] bcast_S1x64_S100000x64_0_1 (broadcastInDim S1x64 ![1] bcast_S64_S1x64_1 b2))) (broadcastInDim S100000x64 ![] bcast_S_S100000x64 (constant S_ .f32 0x00000000#32))) (addf (Host.dotGeneral dot_S100000x16_S16x64_S100000x64_1_0_0_1_n_n none (refHidden ei x W1 b1 tW1 tb1) tW2) (broadcastInDim S100000x64 ![0, 1] bcast_S1x64_S100000x64_0_1 (broadcastInDim S1x64 ![1] bcast_S64_S1x64_1 tb2)))

end Cert.Gcn

end
-- ==== Proof.Spec.lean ====
/-
  The three dense steps of the two-layer graph convolution with linear residuals, each as ONE function of whole
  arrays over the extended reals, entry by entry. With N = 100000 nodes, s the column of per-node scales
  (the inverse square root of the degree) and "row" meaning a 1×D array:

    projScaled x w s   (p, q) = (Σₖ x(p,k)·w(k,q)) · s(p)
    projBias   x w b   (p, q) = (Σₖ x(p,k)·w(k,q)) + b(q)
    hidden a s b r     (p, k) = max (a(p,k)·s(p) + b(k)) 0 + r(p,k)
    hiddenScaled …     (p, k) = hidden … (p,k) · s(p)
    hiddenProj … w b'  (p, q) = (Σₖ hidden … (p,k)·w(k,q)) + b'(q)
    outLayer a s w b r (p, q) = max ((Σₖ (a(p,k)·s(p))·w(k,q)) + b(q)) 0 + r(p,q)

  Every entry of an output depends on row p of the row-indexed operands only; that is what lets a block of
  5000 rows be computed from the same 5000 rows of the operands.
-/
import Idealize.ShloMosaic.PureOps.Ideal.Laws
import Idealize.ShloMosaic.Lib.ValueIdx

noncomputable section

open scoped BigOperators

namespace Cert.Gcn

open Idealize.ShloMosaic Idealize.ShloMosaic.ValueIdx

/-- The scaled projection: `(x·w)(p,q)·s(p)`. -/
def projScaled (x : FVec Ideal ⟨2, ![100000, 128]⟩ .f32) (w : FVec Ideal ⟨2, ![128, 16]⟩ .f32)
    (s : FVec Ideal ⟨2, ![100000, 1]⟩ .f32) : FVec Ideal ⟨2, ![100000, 16]⟩ .f32 :=
  fun j => (∑ k : Fin 128, x (ix2 (j 0) k) * w (ix2 k (j 1))) * s (ix2 (j 0) (0 : Fin 1))

/-- The projection plus a bias row: `(x·w)(p,q) + b(q)`. -/
def projBias (x : FVec Ideal ⟨2, ![100000, 128]⟩ .f32) (w : FVec Ideal ⟨2, ![128, 16]⟩ .f32)
    (b : FVec Ideal ⟨2, ![1, 16]⟩ .f32) : FVec Ideal ⟨2, ![100000, 16]⟩ .f32 :=
  fun j => (∑ k : Fin 128, x (ix2 (j 0) k) * w (ix2 k (j 1))) + b (ix2 (0 : Fin 1) (j 1))

/-- The hidden features: the aggregate scaled at its target node, plus the bias, cut at zero, plus the residual. -/
def hidden (a : FVec Ideal ⟨2, ![100000, 16]⟩ .f32) (s : FVec Ideal ⟨2, ![100000, 1]⟩ .f32)
    (b : FVec Ideal ⟨2, ![1, 16]⟩ .f32) (r : FVec Ideal ⟨2, ![100000, 16]⟩ .f32) :
    FVec Ideal ⟨2, ![100000, 16]⟩ .f32 :=
  fun j => max (a j * s (ix2 (j 0) (0 : Fin 1)) + b (ix2 (0 : Fin 1) (j 1))) 0 + r j

/-- The hidden features scaled at their own node, ready for the next aggregation. -/
def hiddenScaled (a : FVec Ideal ⟨2, ![100000, 16]⟩ .f32) (s : FVec Ideal ⟨2, ![100000, 1]⟩ .f32)
    (b : FVec Ideal ⟨2, ![1, 16]⟩ .f32) (r : FVec Ideal ⟨2, ![100000, 16]⟩ .f32) :
    FVec Ideal ⟨2, ![100000, 16]⟩ .f32 :=
  fun j => hidden a s b r j * s (ix2 (j 0) (0 : Fin 1))

/-- The second residual: the hidden features projected, plus a bias row. -/
def hiddenProj (a : FVec Ideal ⟨2, ![100000, 16]⟩ .f32) (s : FVec Ideal ⟨2, ![100000, 1]⟩ .f32)
    (b : FVec Ideal ⟨2, ![1, 16]⟩ .f32) (r : FVec Ideal ⟨2, ![100000, 16]⟩ .f32)
    (w : FVec Ideal ⟨2, ![16, 64]⟩ .f32) (b' : FVec Ideal ⟨2, ![1, 64]⟩ .f32) :
    FVec Ideal ⟨2, ![100000, 64]⟩ .f32 :=
  fun j => (∑ k : Fin 16, hidden a s b r (ix2 (j 0) k) * w (ix2 k (j 1))) + b' (ix2 (0 : Fin 1) (j 1))

/-- The output layer: the aggregate scaled at its target node, projected, plus the bias, cut at zero, plus the
    residual. -/
def outLayer (a : FVec Ideal ⟨2, ![100000, 16]⟩ .f32) (s : FVec Ideal ⟨2, ![100000, 1]⟩ .f32)
    (w : FVec Ideal ⟨2, ![16, 64]⟩ .f32) (b : FVec Ideal ⟨2, ![1, 64]⟩ .f32)
    (r : FVec Ideal ⟨2, ![100000, 64]⟩ .f32) : FVec Ideal ⟨2, ![100000, 64]⟩ .f32 :=
  fun j => max ((∑ k : Fin 16, (a (ix2 (j 0) k) * s (ix2 (j 0) (0 : Fin 1))) * w (ix2 k (j 1)))
    + b (ix2 (0 : Fin 1) (j 1))) 0 + r j

end Cert.Gcn

end
-- ==== Proof.KerGraph.lean ====
/-
  The kernel's value as one composition of whole-array functions: three dense steps (Spec.lean) with a plain
  aggregation (Graph.lean) between them.

    s     = the inverse-square-root-degree vector as a column
    xw1s  = projScaled x W1 s                     id1 = projBias x tW1 (row tb1)
    agg1  = aggPlain xw1s
    hs    = hiddenScaled agg1 s (row b1) id1      id2 = hiddenProj agg1 s (row b1) id1 tW2 (row tb2)
    agg2  = aggPlain hs
    out   = outLayer agg2 s W2 (row b2) id2
-/
import proofs.«150358_j45518063403398_2_alg».proof.Proof.Gen.KernelIdeal
import proofs.«150358_j45518063403398_2_alg».proof.Proof.Graph
import proofs.«150358_j45518063403398_2_alg».proof.Proof.Spec

noncomputable section

namespace Cert.Gcn

open Idealize.ShloMosaic
open Cert.KernelIdeal (S2x3200000 S100000 S100000x1 S100000x16 S100000x64 S100000x128 S128x16 S16x64 S16 S64 S1x16 S1x64)

/-- The inverse square roots of the degrees as a column. -/
def isqCol (ei : IVec S2x3200000 32) : FVec Ideal S100000x1 .f32 :=
  shapeCast S100000x1 (isq ei) Cert.KernelIdeal.Facts₀.shapeCasts_S100000_S100000x1

/-- A length-16 bias as a 1×16 row. -/
def rowOf16 (b : FVec Ideal S16 .f32) : FVec Ideal S1x16 .f32 :=
  shapeCast S1x16 b Cert.KernelIdeal.Facts₀.shapeCasts_S16_S1x16

/-- A length-64 bias as a 1×64 row. -/
def rowOf64 (b : FVec Ideal S64 .f32) : FVec Ideal S1x64 .f32 :=
  shapeCast S1x64 b Cert.KernelIdeal.Facts₀.shapeCasts_S64_S1x64

variable (ei : IVec S2x3200000 32) (x : FVec Ideal S100000x128 .f32) (W1 : FVec Ideal S128x16 .f32) (b1 : FVec Ideal S16 .f32)
  (W2 : FVec Ideal S16x64 .f32) (b2 : FVec Ideal S64 .f32) (tW1 : FVec Ideal S128x16 .f32) (tb1 : FVec Ideal S16 .f32)
  (tW2 : FVec Ideal S16x64 .f32) (tb2 : FVec Ideal S64 .f32)

/-- The first aggregate: the scaled projections summed over the edges. -/
def kerAgg1 : FVec Ideal S100000x16 .f32 := aggPlain ei (projScaled x W1 (isqCol ei))

/-- The kernel's scaled hidden features. -/
def kerHidScaled : FVec Ideal S100000x16 .f32 :=
  hiddenScaled (kerAgg1 ei x W1) (isqCol ei) (rowOf16 b1) (projBias x tW1 (rowOf16 tb1))

/-- The kernel's second residual. -/
def kerResid2 : FVec Ideal S100000x64 .f32 :=
  hiddenProj (kerAgg1 ei x W1) (isqCol ei) (rowOf16 b1) (projBias x tW1 (rowOf16 tb1)) tW2 (rowOf64 tb2)

/-- The kernel's result. -/
def kerOut : FVec Ideal S100000x64 .f32 :=
  outLayer (aggPlain ei (kerHidScaled ei x W1 b1 tW1 tb1)) (isqCol ei) W2 (rowOf64 b2) (kerResid2 ei x W1 b1 tW1 tb1 tW2 tb2)

end Cert.Gcn

end
-- ==== Proof.KerChain.lean ====
/-
  The idealized kernel's result buffer, walked back to the launch memory.

  The memory at the eight boundaries of the program is a fold: W0 the launch memory; W1, W2, W3 after the three
  first stretches of host operations (index words and degrees; the select that makes the inverse square roots; five
  reshapes); W4 after region 0; W5 after the first aggregation; W6 after region 1; W7 after the second aggregation;
  W8 after region 2. A buffer that a stretch does not write, and a buffer that is not an output array of a region,
  holds at the later boundary what it held at the earlier one. Composing these steps, the result buffer at W8 is
  `kerOut` of the argument arrays: three dense steps with a plain aggregation between them.
-/
import proofs.«150358_j45518063403398_2_alg».proof.Proof.Gen.KernelIdeal.Frame
import proofs.«150358_j45518063403398_2_alg».proof.Proof.KerGraph
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## What each stretch of host operations computes, from any contents `W` -/

section Stretches

variable (W : Valuation τ sig (Elt Ideal))

theorem s0_row : after (hostOps0 (F := Ideal)) W (Proc.devRef .tc main_v3) = Cert.Gcn.rowv (W (Proc.devRef .tc main_arg1)) := by
  after_results; rfl

theorem s0_col : after (hostOps0 (F := Ideal)) W (Proc.devRef .tc main_v6) = Cert.Gcn.colv (W (Proc.devRef .tc main_arg1)) := by
  after_results; rfl

theorem s0_mask : after (hostOps0 (F := Ideal)) W (Proc.devRef .tc main_v12)
    = cmpf (F := Ideal) .ogt (Cert.Gcn.deg (W (Proc.devRef .tc main_arg1)))
        (broadcastInDim S100000 ![] Facts₀.bcast_S_S100000 (constant S_ .f32 0x00000000#32)) := by
  after_results; rfl

theorem s0_rsqrt : after (hostOps0 (F := Ideal)) W (Proc.devRef .tc main_v13)
    = Host.rsqrt (F := Ideal) (Cert.Gcn.deg (W (Proc.devRef .tc main_arg1))) := by
  after_results; rfl

theorem s0_zero : after (hostOps0 (F := Ideal)) W (Proc.devRef .tc main_cst_2) = constant (F := Ideal) S_ .f32 0x00000000#32 := by
  after_results

theorem s1_isq : after (hostOps0_1 (F := Ideal)) W (Proc.devRef .tc main_v14)
    = select (W (Proc.devRef .tc main_v12)) (W (Proc.devRef .tc main_v13))
        (broadcastInDim S100000 ![] Facts₀.bcast_S_S100000 (id (W (Proc.devRef .tc main_cst_2)))) := by
  after_results; rfl

theorem s2_col : after (hostOps0_2 (F := Ideal)) W (Proc.devRef .tc main_v15)
    = shapeCast S100000x1 (W (Proc.devRef .tc main_v14)) Facts₀.shapeCasts_S100000_S100000x1 := by
  after_results; rfl

theorem s2_b1 : after (hostOps0_2 (F := Ideal)) W (Proc.devRef .tc main_v16) = Cert.Gcn.rowOf16 (W (Proc.devRef .tc main_arg3)) := by
  after_results; rfl

theorem s2_tb1 : after (hostOps0_2 (F := Ideal)) W (Proc.devRef .tc main_v17) = Cert.Gcn.rowOf16 (W (Proc.devRef .tc main_arg7)) := by
  after_results; rfl

theorem s2_b2 : after (hostOps0_2 (F := Ideal)) W (Proc.devRef .tc main_v18) = Cert.Gcn.rowOf64 (W (Proc.devRef .tc main_arg5)) := by
  after_results; rfl

theorem s2_tb2 : after (hostOps0_2 (F := Ideal)) W (Proc.devRef .tc main_v19) = Cert.Gcn.rowOf64 (W (Proc.devRef .tc main_arg9)) := by
  after_results; rfl

/-- The first aggregation: the rows of region 0's first output gathered at the source words and summed at the
    target words. -/
theorem s3_agg : after (hostOps1 (F := Ideal)) W (Proc.devRef .tc main_v30)
    = Host.scatterAdd (F := Ideal) scatter_S100000x16_S3300000x1_S3300000x16_1_0_0_1
        (broadcastInDim S100000x16 ![] Facts₀.bcast_S_S100000x16 (constant S_ .f32 0x00000000#32))
        (Cert.Gcn.asCol (W (Proc.devRef .tc main_v6)))
        (Host.gather gather_S100000x16_S3300000x1_S3300000x16_1_0_n_n_0_1_116 (W (Proc.devRef .tc main_v20_0))
          (Cert.Gcn.asCol (Cert.Gcn.normIdx (W (Proc.devRef .tc main_v3))))) := by
  after_results; rfl

/-- The second aggregation, of region 1's first output. -/
theorem s5_agg : after (hostOps2 (F := Ideal)) W (Proc.devRef .tc main_v41)
    = Host.scatterAdd (F := Ideal) scatter_S100000x16_S3300000x1_S3300000x16_1_0_0_1
        (broadcastInDim S100000x16 ![] Facts₀.bcast_S_S100000x16 (constant S_ .f32 0x00000000#32))
        (Cert.Gcn.asCol (W (Proc.devRef .tc main_v6)))
        (Host.gather gather_S100000x16_S3300000x1_S3300000x16_1_0_n_n_0_1_116 (W (Proc.devRef .tc main_v31_0))
          (Cert.Gcn.asCol (Cert.Gcn.normIdx (W (Proc.devRef .tc main_v3))))) := by
  after_results; rfl

end Stretches

/-- One step back through a stretch of host operations none of which writes the buffer in hand. -/
macro "keep_step" : tactic => `(tactic|
  (refine Eq.trans (StableHlo.after_of_forall_not_mem _ _ (List.forall_iff_forall_mem.mp ?_)) ?_
   · simp only [hostOps0, hostOps0_1, hostOps0_2, hostOps1, hostOps2, List.Forall, StableHlo.nullary_writes,
       StableHlo.unary_writes, StableHlo.binary_writes, StableHlo.ternary_writes, StableHlo.quaternary_writes,
       StableHlo.reshape_writes, StableHlo.binaryIndexed_writes, Finset.mem_singleton]
     repeat' apply And.intro
     all_goals exact StableHlo.devRef_ne_of_ne (by decide)))

variable (m : (ℓ : Loc nD τ sig) → Buf (Elt Ideal) ℓ) (ρ : Dev nD → PrngReg)

/-! ## Region 0's entry (W3) -/

theorem w3_x (c : Dev nD) : W3 m ρ c (Proc.devRef .tc main_arg0) = m ((c : Thread nD τ).loc main_arg0) := by
  keep_step; keep_step; keep_step; rfl
theorem w3_W1 (c : Dev nD) : W3 m ρ c (Proc.devRef .tc main_arg2) = m ((c : Thread nD τ).loc main_arg2) := by
  keep_step; keep_step; keep_step; rfl
theorem w3_W2 (c : Dev nD) : W3 m ρ c (Proc.devRef .tc main_arg4) = m ((c : Thread nD τ).loc main_arg4) := by
  keep_step; keep_step; keep_step; rfl
theorem w3_tW1 (c : Dev nD) : W3 m ρ c (Proc.devRef .tc main_arg6) = m ((c : Thread nD τ).loc main_arg6) := by
  keep_step; keep_step; keep_step; rfl
theorem w3_tW2 (c : Dev nD) : W3 m ρ c (Proc.devRef .tc main_arg8) = m ((c : Thread nD τ).loc main_arg8) := by
  keep_step; keep_step; keep_step; rfl

theorem w3_row (c : Dev nD) : W3 m ρ c (Proc.devRef .tc main_v3) = Cert.Gcn.rowv (m ((c : Thread nD τ).loc main_arg1)) := by
  keep_step; keep_step; exact s0_row _
theorem w3_col (c : Dev nD) : W3 m ρ c (Proc.devRef .tc main_v6) = Cert.Gcn.colv (m ((c : Thread nD τ).loc main_arg1)) := by
  keep_step; keep_step; exact s0_col _

/-- The column of inverse square roots of the degrees: the reshape of the select of the comparison and the
    reciprocal square root of the degree sums. -/
theorem w3_s (c : Dev nD) : W3 m ρ c (Proc.devRef .tc main_v15) = Cert.Gcn.isqCol (m ((c : Thread nD τ).loc main_arg1)) := by
  refine (s2_col _).trans ?_
  refine congrArg (fun v => shapeCast S100000x1 v Facts₀.shapeCasts_S100000_S100000x1) ?_
  refine (s1_isq _).trans ?_
  rw [show W1 m ρ c (Proc.devRef .tc main_v12) = _ from s0_mask _, show W1 m ρ c (Proc.devRef .tc main_v13) = _ from s0_rsqrt _,
    show W1 m ρ c (Proc.devRef .tc main_cst_2) = _ from s0_zero _]
  rfl

theorem w3_b1 (c : Dev nD) : W3 m ρ c (Proc.devRef .tc main_v16) = Cert.Gcn.rowOf16 (m ((c : Thread nD τ).loc main_arg3)) := by
  refine (s2_b1 _).trans (congrArg Cert.Gcn.rowOf16 ?_); keep_step; keep_step; rfl
theorem w3_tb1 (c : Dev nD) : W3 m ρ c (Proc.devRef .tc main_v17) = Cert.Gcn.rowOf16 (m ((c : Thread nD τ).loc main_arg7)) := by
  refine (s2_tb1 _).trans (congrArg Cert.Gcn.rowOf16 ?_); keep_step; keep_step; rfl
theorem w3_b2 (c : Dev nD) : W3 m ρ c (Proc.devRef .tc main_v18) = Cert.Gcn.rowOf64 (m ((c : Thread nD τ).loc main_arg5)) := by
  refine (s2_b2 _).trans (congrArg Cert.Gcn.rowOf64 ?_); keep_step; keep_step; rfl
theorem w3_tb2 (c : Dev nD) : W3 m ρ c (Proc.devRef .tc main_v19) = Cert.Gcn.rowOf64 (m ((c : Thread nD τ).loc main_arg9)) := by
  refine (s2_tb2 _).trans (congrArg Cert.Gcn.rowOf64 ?_); keep_step; keep_step; rfl

/-! ## Region 0's exit (W4): its two outputs by the region's closed forms, everything else as entered -/

section Regions

variable
  (hR0s : ∀ (V : (c : Dev nD) → (b : Ref sig .tc) → Buf (Elt Ideal) ((c : Thread nD τ).loc b)) (c : Dev nD),
    (dat0 (F := Ideal) V c).arrAt 5 cfg0.N
      = Cert.Gcn.projScaled (V c (Pipeline.arrRef spec0 0)) (V c (Pipeline.arrRef spec0 1)) (V c (Pipeline.arrRef spec0 4)))
  (hR0r : ∀ (V : (c : Dev nD) → (b : Ref sig .tc) → Buf (Elt Ideal) ((c : Thread nD τ).loc b)) (c : Dev nD),
    (dat0 (F := Ideal) V c).arrAt 6 cfg0.N
      = Cert.Gcn.projBias (V c (Pipeline.arrRef spec0 0)) (V c (Pipeline.arrRef spec0 2)) (V c (Pipeline.arrRef spec0 3)))
  (hR1s : ∀ (V : (c : Dev nD) → (b : Ref sig .tc) → Buf (Elt Ideal) ((c : Thread nD τ).loc b)) (c : Dev nD),
    (dat1 (F := Ideal) V c).arrAt 6 cfg1.N
      = Cert.Gcn.hiddenScaled (V c (Pipeline.arrRef spec1 0)) (V c (Pipeline.arrRef spec1 1)) (V c (Pipeline.arrRef spec1 2))
          (V c (Pipeline.arrRef spec1 3)))
  (hR1r : ∀ (V : (c : Dev nD) → (b : Ref sig .tc) → Buf (Elt Ideal) ((c : Thread nD τ).loc b)) (c : Dev nD),
    (dat1 (F := Ideal) V c).arrAt 7 cfg1.N
      = Cert.Gcn.hiddenProj (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)))
  (hR2 : ∀ (V : (c : Dev nD) → (b : Ref sig .tc) → Buf (Elt Ideal) ((c : Thread nD τ).loc b)) (c : Dev nD),
    (dat2 (F := Ideal) V c).arrAt 5 cfg2.N
      = Cert.Gcn.outLayer (V c (Pipeline.arrRef spec2 0)) (V c (Pipeline.arrRef spec2 1)) (V c (Pipeline.arrRef spec2 2))
          (V c (Pipeline.arrRef spec2 3)) (V c (Pipeline.arrRef spec2 4)))

include hR0s in
theorem w4_scaled (c : Dev nD) : W4 m ρ c (Proc.devRef .tc main_v20_0)
    = Cert.Gcn.projScaled (m ((c : Thread nD τ).loc main_arg0)) (m ((c : Thread nD τ).loc main_arg2))
        (Cert.Gcn.isqCol (m ((c : Thread nD τ).loc main_arg1))) := by
  refine (W4_arr m ρ c 5).trans ((hR0s (V3 m ρ) c).trans ?_)
  show Cert.Gcn.projScaled (W3 m ρ c (Proc.devRef .tc main_arg0)) (W3 m ρ c (Proc.devRef .tc main_arg2))
    (W3 m ρ c (Proc.devRef .tc main_v15)) = _
  rw [w3_x m ρ c, w3_W1 m ρ c, w3_s m ρ c]

include hR0r in
theorem w4_resid (c : Dev nD) : W4 m ρ c (Proc.devRef .tc main_v20_1)
    = Cert.Gcn.projBias (m ((c : Thread nD τ).loc main_arg0)) (m ((c : Thread nD τ).loc main_arg6))
        (Cert.Gcn.rowOf16 (m ((c : Thread nD τ).loc main_arg7))) := by
  refine (W4_arr m ρ c 6).trans ((hR0r (V3 m ρ) c).trans ?_)
  show Cert.Gcn.projBias (W3 m ρ c (Proc.devRef .tc main_arg0)) (W3 m ρ c (Proc.devRef .tc main_arg6))
    (W3 m ρ c (Proc.devRef .tc main_v17)) = _
  rw [w3_x m ρ c, w3_tW1 m ρ c, w3_tb1 m ρ c]

/-- The column is an input array of region 0: it leaves the region as it entered. -/
theorem w4_s (c : Dev nD) : W4 m ρ c (Proc.devRef .tc main_v15) = Cert.Gcn.isqCol (m ((c : Thread nD τ).loc main_arg1)) :=
  ((W4_arr m ρ c 4).trans (((dat0 (V3 m ρ) c).arrAt_in 4 rfl _).trans (A_eq0 (V3 m ρ) c 4))).trans (w3_s m ρ c)

theorem w4_row (c : Dev nD) : W4 m ρ c (Proc.devRef .tc main_v3) = Cert.Gcn.rowv (m ((c : Thread nD τ).loc main_arg1)) :=
  (W4_of_ne m ρ c main_v3 (by decide)).trans (w3_row m ρ c)
theorem w4_col (c : Dev nD) : W4 m ρ c (Proc.devRef .tc main_v6) = Cert.Gcn.colv (m ((c : Thread nD τ).loc main_arg1)) :=
  (W4_of_ne m ρ c main_v6 (by decide)).trans (w3_col m ρ c)
theorem w4_b1 (c : Dev nD) : W4 m ρ c (Proc.devRef .tc main_v16) = Cert.Gcn.rowOf16 (m ((c : Thread nD τ).loc main_arg3)) :=
  (W4_of_ne m ρ c main_v16 (by decide)).trans (w3_b1 m ρ c)
theorem w4_b2 (c : Dev nD) : W4 m ρ c (Proc.devRef .tc main_v18) = Cert.Gcn.rowOf64 (m ((c : Thread nD τ).loc main_arg5)) :=
  (W4_of_ne m ρ c main_v18 (by decide)).trans (w3_b2 m ρ c)
theorem w4_tb2 (c : Dev nD) : W4 m ρ c (Proc.devRef .tc main_v19) = Cert.Gcn.rowOf64 (m ((c : Thread nD τ).loc main_arg9)) :=
  (W4_of_ne m ρ c main_v19 (by decide)).trans (w3_tb2 m ρ c)
theorem w4_W2 (c : Dev nD) : W4 m ρ c (Proc.devRef .tc main_arg4) = m ((c : Thread nD τ).loc main_arg4) :=
  (W4_of_ne m ρ c main_arg4 (by decide)).trans (w3_W2 m ρ c)
theorem w4_tW2 (c : Dev nD) : W4 m ρ c (Proc.devRef .tc main_arg8) = m ((c : Thread nD τ).loc main_arg8) :=
  (W4_of_ne m ρ c main_arg8 (by decide)).trans (w3_tW2 m ρ c)

/-! ## Region 1's entry (W5): the first aggregate, everything else untouched by the stretch -/

include hR0s in
theorem w5_agg (c : Dev nD) : W5 m ρ c (Proc.devRef .tc main_v30)
    = Cert.Gcn.kerAgg1 (m ((c : Thread nD τ).loc main_arg1)) (m ((c : Thread nD τ).loc main_arg0)) (m ((c : Thread nD τ).loc main_arg2)) := by
  refine (s3_agg _).trans ?_
  rw [show W4 m ρ c (Proc.devRef .tc main_v6) = _ from w4_col m ρ c, show W4 m ρ c (Proc.devRef .tc main_v3) = _ from w4_row m ρ c,
    show W4 m ρ c (Proc.devRef .tc main_v20_0) = _ from w4_scaled m ρ hR0s c]
  rfl

theorem w5_s (c : Dev nD) : W5 m ρ c (Proc.devRef .tc main_v15) = Cert.Gcn.isqCol (m ((c : Thread nD τ).loc main_arg1)) := by
  keep_step; exact w4_s m ρ c
theorem w5_b1 (c : Dev nD) : W5 m ρ c (Proc.devRef .tc main_v16) = Cert.Gcn.rowOf16 (m ((c : Thread nD τ).loc main_arg3)) := by
  keep_step; exact w4_b1 m ρ c
include hR0r in
theorem w5_resid (c : Dev nD) : W5 m ρ c (Proc.devRef .tc main_v20_1)
    = Cert.Gcn.projBias (m ((c : Thread nD τ).loc main_arg0)) (m ((c : Thread nD τ).loc main_arg6))
        (Cert.Gcn.rowOf16 (m ((c : Thread nD τ).loc main_arg7))) := by
  keep_step; exact w4_resid m ρ hR0r c
theorem w5_tW2 (c : Dev nD) : W5 m ρ c (Proc.devRef .tc main_arg8) = m ((c : Thread nD τ).loc main_arg8) := by
  keep_step; exact w4_tW2 m ρ c
theorem w5_tb2 (c : Dev nD) : W5 m ρ c (Proc.devRef .tc main_v19) = Cert.Gcn.rowOf64 (m ((c : Thread nD τ).loc main_arg9)) := by
  keep_step; exact w4_tb2 m ρ c
theorem w5_row (c : Dev nD) : W5 m ρ c (Proc.devRef .tc main_v3) = Cert.Gcn.rowv (m ((c : Thread nD τ).loc main_arg1)) := by
  keep_step; exact w4_row m ρ c
theorem w5_col (c : Dev nD) : W5 m ρ c (Proc.devRef .tc main_v6) = Cert.Gcn.colv (m ((c : Thread nD τ).loc main_arg1)) := by
  keep_step; exact w4_col m ρ c
theorem w5_W2 (c : Dev nD) : W5 m ρ c (Proc.devRef .tc main_arg4) = m ((c : Thread nD τ).loc main_arg4) := by
  keep_step; exact w4_W2 m ρ c
theorem w5_b2 (c : Dev nD) : W5 m ρ c (Proc.devRef .tc main_v18) = Cert.Gcn.rowOf64 (m ((c : Thread nD τ).loc main_arg5)) := by
  keep_step; exact w4_b2 m ρ c

/-! ## Region 1's exit (W6) -/

include hR0s hR0r hR1s in
theorem w6_scaled (c : Dev nD) : W6 m ρ c (Proc.devRef .tc main_v31_0)
    = Cert.Gcn.kerHidScaled (m ((c : Thread nD τ).loc main_arg1)) (m ((c : Thread nD τ).loc main_arg0)) (m ((c : Thread nD τ).loc main_arg2))
        (m ((c : Thread nD τ).loc main_arg3)) (m ((c : Thread nD τ).loc main_arg6)) (m ((c : Thread nD τ).loc main_arg7)) := by
  refine (W6_arr m ρ c 6).trans ((hR1s (V5 m ρ) c).trans ?_)
  show Cert.Gcn.hiddenScaled (W5 m ρ c (Proc.devRef .tc main_v30)) (W5 m ρ c (Proc.devRef .tc main_v15))
    (W5 m ρ c (Proc.devRef .tc main_v16)) (W5 m ρ c (Proc.devRef .tc main_v20_1)) = _
  rw [w5_agg m ρ hR0s c, w5_s m ρ c, w5_b1 m ρ c, w5_resid m ρ hR0r c]
  rfl

include hR0s hR0r hR1r in
theorem w6_resid (c : Dev nD) : W6 m ρ c (Proc.devRef .tc main_v31_1)
    = Cert.Gcn.kerResid2 (m ((c : Thread nD τ).loc main_arg1)) (m ((c : Thread nD τ).loc main_arg0)) (m ((c : Thread nD τ).loc main_arg2))
        (m ((c : Thread nD τ).loc main_arg3)) (m ((c : Thread nD τ).loc main_arg6)) (m ((c : Thread nD τ).loc main_arg7))
        (m ((c : Thread nD τ).loc main_arg8)) (m ((c : Thread nD τ).loc main_arg9)) := by
  refine (W6_arr m ρ c 7).trans ((hR1r (V5 m ρ) c).trans ?_)
  show Cert.Gcn.hiddenProj (W5 m ρ c (Proc.devRef .tc main_v30)) (W5 m ρ c (Proc.devRef .tc main_v15))
    (W5 m ρ c (Proc.devRef .tc main_v16)) (W5 m ρ c (Proc.devRef .tc main_v20_1)) (W5 m ρ c (Proc.devRef .tc main_arg8))
    (W5 m ρ c (Proc.devRef .tc main_v19)) = _
  rw [w5_agg m ρ hR0s c, w5_s m ρ c, w5_b1 m ρ c, w5_resid m ρ hR0r c, w5_tW2 m ρ c, w5_tb2 m ρ c]
  rfl

/-- The column is an input array of region 1 as well. -/
theorem w6_s (c : Dev nD) : W6 m ρ c (Proc.devRef .tc main_v15) = Cert.Gcn.isqCol (m ((c : Thread nD τ).loc main_arg1)) :=
  ((W6_arr m ρ c 1).trans (((dat1 (V5 m ρ) c).arrAt_in 1 rfl _).trans (A_eq1 (V5 m ρ) c 1))).trans (w5_s m ρ c)
theorem w6_row (c : Dev nD) : W6 m ρ c (Proc.devRef .tc main_v3) = Cert.Gcn.rowv (m ((c : Thread nD τ).loc main_arg1)) :=
  (W6_of_ne m ρ c main_v3 (by decide)).trans (w5_row m ρ c)
theorem w6_col (c : Dev nD) : W6 m ρ c (Proc.devRef .tc main_v6) = Cert.Gcn.colv (m ((c : Thread nD τ).loc main_arg1)) :=
  (W6_of_ne m ρ c main_v6 (by decide)).trans (w5_col m ρ c)
theorem w6_W2 (c : Dev nD) : W6 m ρ c (Proc.devRef .tc main_arg4) = m ((c : Thread nD τ).loc main_arg4) :=
  (W6_of_ne m ρ c main_arg4 (by decide)).trans (w5_W2 m ρ c)
theorem w6_b2 (c : Dev nD) : W6 m ρ c (Proc.devRef .tc main_v18) = Cert.Gcn.rowOf64 (m ((c : Thread nD τ).loc main_arg5)) :=
  (W6_of_ne m ρ c main_v18 (by decide)).trans (w5_b2 m ρ c)

/-! ## Region 2's entry (W7) and the result (W8) -/

include hR0s hR0r hR1s in
theorem w7_agg (c : Dev nD) : W7 m ρ c (Proc.devRef .tc main_v41)
    = Cert.Gcn.aggPlain (m ((c : Thread nD τ).loc main_arg1))
        (Cert.Gcn.kerHidScaled (m ((c : Thread nD τ).loc main_arg1)) (m ((c : Thread nD τ).loc main_arg0)) (m ((c : Thread nD τ).loc main_arg2))
          (m ((c : Thread nD τ).loc main_arg3)) (m ((c : Thread nD τ).loc main_arg6)) (m ((c : Thread nD τ).loc main_arg7))) := by
  refine (s5_agg _).trans ?_
  rw [show W6 m ρ c (Proc.devRef .tc main_v6) = _ from w6_col m ρ c, show W6 m ρ c (Proc.devRef .tc main_v3) = _ from w6_row m ρ c,
    show W6 m ρ c (Proc.devRef .tc main_v31_0) = _ from w6_scaled m ρ hR0s hR0r hR1s c]
  rfl

theorem w7_s (c : Dev nD) : W7 m ρ c (Proc.devRef .tc main_v15) = Cert.Gcn.isqCol (m ((c : Thread nD τ).loc main_arg1)) := by
  keep_step; exact w6_s m ρ c
theorem w7_W2 (c : Dev nD) : W7 m ρ c (Proc.devRef .tc main_arg4) = m ((c : Thread nD τ).loc main_arg4) := by
  keep_step; exact w6_W2 m ρ c
theorem w7_b2 (c : Dev nD) : W7 m ρ c (Proc.devRef .tc main_v18) = Cert.Gcn.rowOf64 (m ((c : Thread nD τ).loc main_arg5)) := by
  keep_step; exact w6_b2 m ρ c
include hR0s hR0r hR1r in
theorem w7_resid (c : Dev nD) : W7 m ρ c (Proc.devRef .tc main_v31_1)
    = Cert.Gcn.kerResid2 (m ((c : Thread nD τ).loc main_arg1)) (m ((c : Thread nD τ).loc main_arg0)) (m ((c : Thread nD τ).loc main_arg2))
        (m ((c : Thread nD τ).loc main_arg3)) (m ((c : Thread nD τ).loc main_arg6)) (m ((c : Thread nD τ).loc main_arg7))
        (m ((c : Thread nD τ).loc main_arg8)) (m ((c : Thread nD τ).loc main_arg9)) := by
  keep_step; exact w6_resid m ρ hR0s hR0r hR1r c

include hR0s hR0r hR1s hR1r hR2 in
/-- THE RESULT: after the last region the result buffer holds `kerOut` of the argument arrays. -/
theorem result_eq (c : Dev nD) : W8 m ρ c (Proc.devRef .tc main_v42)
    = Cert.Gcn.kerOut (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W8_arr m ρ c 5).trans ((hR2 (V7 m ρ) c).trans ?_)
  show Cert.Gcn.outLayer (W7 m ρ c (Proc.devRef .tc main_v41)) (W7 m ρ c (Proc.devRef .tc main_v15))
    (W7 m ρ c (Proc.devRef .tc main_arg4)) (W7 m ρ c (Proc.devRef .tc main_v18)) (W7 m ρ c (Proc.devRef .tc main_v31_1)) = _
  rw [w7_agg m ρ hR0s hR0r hR1s c, w7_s m ρ c, w7_W2 m ρ c, w7_b2 m ρ c, w7_resid m ρ hR0s hR0r hR1r c]
  rfl

end Regions

end Cert.KernelIdeal.Chain

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Region0.lean ====
/-
  The first dense step, read as whole arrays.

  The region tiles the 100000 node rows in 20 blocks of 5000 rows. At grid point t the body sees rows
  5000·t … 5000·t+4999 of the features and of the column of scales, and the whole of both weight matrices and of the
  bias row. It leaves, in its two output blocks, (x·w)(p,q)·s(p) and (x·w')(p,q) + b(q) for the block's rows p. Every
  entry of an output depends only on row p of the row-indexed operands, so the block a point writes back is the
  block of ONE function of the whole arrays, and as the twenty blocks cover every row the array ends holding that
  function.
-/
import proofs.«150358_j45518063403398_2_alg».proof.Proof.Gen.KernelIdeal.Frame
import proofs.«150358_j45518063403398_2_alg».proof.Proof.Spec
import proofs.«150358_j45518063403398_2_alg».proof.Proof.LibPlainDot
import proofs.«150358_j45518063403398_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-- The first output block of the first layer at an entry: the product of the feature block with the weights, scaled
    by the row's entry of the column. -/
theorem pay_projScaled (x0 : Vec Ideal S5000x128 .f32) (x1 : Vec Ideal S128x16 .f32) (x4 : Vec Ideal S5000x1 .f32)
    (p : Fin 5000) (q : Fin 16) :
    k0_pay2 (F := Ideal) x0 x1 x4 (ix2 p q) = (∑ k : Fin 128, x0 (ix2 p k) * x1 (ix2 k q)) * x4 (ix2 p (0 : Fin 1)) := by
  unfold k0_pay2 k0_pay1
  rw [mulf_apply]
  refine congrArg₂ (· * ·) ?_ ?_
  · exact Cert.LibPlainDot.matmul_zero_apply dot_S5000x128_S128x16_S5000x16_1_0_0_1_n_n rfl none _ _ p q
  · rw [shapeCast_self]; exact Cert.LibColumn.broadcastTo_a1_ab_apply _ _ p q

/-- The second output block of the first layer at an entry: the product of the feature block with the second weights,
    plus the bias row's entry of the column. -/
theorem pay_projBias (x0 : Vec Ideal S5000x128 .f32) (x2 : Vec Ideal S128x16 .f32) (x3 : Vec Ideal S1x16 .f32)
    (p : Fin 5000) (q : Fin 16) :
    k0_pay3 (F := Ideal) x0 x2 x3 (ix2 p q) = (∑ k : Fin 128, x0 (ix2 p k) * x2 (ix2 k q)) + x3 (ix2 (0 : Fin 1) q) := by
  unfold k0_pay3 k0_pay1
  rw [addf_apply]
  refine congrArg₂ (· + ·) ?_ ?_
  · exact Cert.LibPlainDot.matmul_zero_apply dot_S5000x128_S128x16_S5000x16_1_0_0_1_n_n rfl none _ _ p q
  · rw [shapeCast_self]; exact broadcastTo_1b_ab_apply _ _ p q

/-- The two zero offsets, however they are spelt. -/
theorem zeroOffsets : (![0, 0] : Fin 2 → Nat) = fun _ => 0 := funext fun a => by fin_cases a <;> rfl

/-- The first layer's index maps, decided over the twenty grid points: every row-indexed window sits at the output's
    row block and at column block zero, the weights and the bias row at block zero on both axes, and the output's
    row block is the grid point itself. -/
theorem blockIndex0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_6.index t (0 : Fin 2) = win0_5.index t (0 : Fin 2) ∧ win0_6.index t (1 : Fin 2) = 0
    ∧ win0_5.index t (0 : Fin 2) = t.val ∧ win0_5.index t (1 : Fin 2) = 0 :=
  (by decide +kernel : ∀ t : Fin grid0.N, _)

/-- What the body leaves in the first output's buffer, at an entry, over any blocks. -/
theorem out_scaled (x0 : Vec Ideal S5000x128 .f32) (x1 : Vec Ideal S128x16 .f32) (x2 : Vec Ideal S128x16 .f32)
    (x3 : Vec Ideal S1x16 .f32) (x4 : Vec Ideal S5000x1 .f32) (p : Fin 5000) (q : Fin 16) :
    out0_5 (F := Ideal) x0 x1 x2 x3 x4 (ix2 p q)
      = (∑ k : Fin 128, x0 (ix2 p k) * x1 (ix2 k q)) * x4 (ix2 p (0 : Fin 1)) := by
  unfold out0_5
  rw [View.canon_unit_zero zeroOffsets]
  simp only [View.ld_unit_zero (S := S5000x128) zeroOffsets, View.ld_unit_zero (S := S128x16) zeroOffsets,
    View.ld_unit_zero (S := S5000x1) zeroOffsets]
  exact pay_projScaled x0 x1 x4 p q

variable (V : (c : Dev nD) → (b : Ref sig .tc) → Buf (Elt Ideal) ((c : Thread nD τ).loc b))

/-- What grid point t writes back to the first output is block t of the scaled projection of the arrays. -/
theorem flushed_scaled (c : Dev nD) (t : Fin cfg0.N) :
    (dat0 (F := Ideal) V c).flushed 5 t = ((cfg0.win 5).blk t).view.read (Elt Ideal)
      (Cert.Gcn.projScaled (V c (Pipeline.arrRef spec0 0)) (V c (Pipeline.arrRef spec0 1)) (V c (Pipeline.arrRef spec0 4))) := by
  show (cfg0.win 5).cut (grid0.coords t) ((dat0 V c).after 5 t) = _
  rw [after0_5]
  obtain ⟨e00, e01, e10, e11, e20, e21, e30, e31, e40, e41, e60, e61, e50, e51⟩ := blockIndex0 t
  funext j
  obtain ⟨p, q, rfl⟩ : ∃ (p : Fin 5000) (q : Fin 16), j = ix2 p q := ⟨j 0, j 1, eq_ix2 j⟩
  show out0_5 (iblk0 V c 0 t) (iblk0 V c 1 t) (iblk0 V c 2 t) (iblk0 V c 3 t) (iblk0 V c 4 t) (ix2 p q)
    = Cert.Gcn.projScaled (V c (Pipeline.arrRef spec0 0)) (V c (Pipeline.arrRef spec0 1)) (V c (Pipeline.arrRef spec0 4))
        (((cfg0.win 5).blk t).view.emb (ix2 p q))
  rw [out_scaled]
  have hN : t.val < 20 := lt_of_lt_of_eq t.isLt (N_0 : cfg0.N = 20)
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 16 + 1 * q.val = q.val; omega
  rw [hemb]
  refine congrArg₂ (· * ·) (Finset.sum_congr rfl fun k _ => congrArg₂ (· * ·) ?_ ?_) ?_
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  · show V c (Pipeline.arrRef spec0 4) (((cfg0.win 4).blk t).view.emb (ix2 p (0 : Fin 1))) = _
    refine congrArg _ (funext fun a => Fin.ext ?_)
    match a with
    | ⟨0, _⟩ => show win0_4.index t (0 : Fin 2) * 5000 + 1 * p.val = t.val * 5000 + p.val; omega
    | ⟨1, _⟩ => show win0_4.index t (1 : Fin 2) * 1 + 1 * 0 = 0; omega

/-- An index of the array is in point t's block iff each coordinate is in the block's range on its axis. -/
theorem mem_block_scaled (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v20_0).slice (win0_5.rect t)).set ↔ _
  rw [View.set_slice_whole, Rect.mem_set_unit]
  exact Iff.rfl

/-- Every index of the array is in the block of the grid point that is its row divided by the block height. -/
theorem cover_scaled (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hlt : (i 0).val / 5000 < cfg0.N := lt_of_lt_of_eq (by omega) (N_0 : cfg0.N = 20).symm
  obtain ⟨t, ht⟩ : ∃ t : Fin cfg0.N, t.val = (i 0).val / 5000 := ⟨⟨_, hlt⟩, rfl⟩
  obtain ⟨e00, e01, e10, e11, e20, e21, e30, e31, e40, e41, e60, e61, e50, e51⟩ := blockIndex0 t
  refine ⟨t, flush0_5 t, ?_⟩
  rw [mem_block_scaled]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 16 ≤ (i 1).val ∧ (i 1).val < win0_5.index t (1 : Fin 2) * 16 + 16
    omega

/-- The first output array after the region: the scaled projection of the arrays the region found. -/
theorem region0_scaled (c : Dev nD) :
    (dat0 (F := Ideal) V c).arrAt 5 cfg0.N
      = Cert.Gcn.projScaled (V c (Pipeline.arrRef spec0 0)) (V c (Pipeline.arrRef spec0 1)) (V c (Pipeline.arrRef spec0 4)) :=
  (dat0 (F := Ideal) V c).arrAt_eq_of_cover 5 _ (fun t _ => flushed_scaled V c t) cover_scaled

/-- What the body leaves in the second output's buffer, at an entry, over any blocks. -/
theorem out_resid (x0 : Vec Ideal S5000x128 .f32) (x1 : Vec Ideal S128x16 .f32) (x2 : Vec Ideal S128x16 .f32)
    (x3 : Vec Ideal S1x16 .f32) (x4 : Vec Ideal S5000x1 .f32) (p : Fin 5000) (q : Fin 16) :
    out0_6 (F := Ideal) x0 x1 x2 x3 x4 (ix2 p q)
      = (∑ k : Fin 128, x0 (ix2 p k) * x2 (ix2 k q)) + x3 (ix2 (0 : Fin 1) q) := by
  unfold out0_6
  rw [View.canon_unit_zero zeroOffsets]
  simp only [View.ld_unit_zero (S := S5000x128) zeroOffsets, View.ld_unit_zero (S := S128x16) zeroOffsets,
    View.ld_unit_zero (S := S1x16) zeroOffsets]
  exact pay_projBias x0 x2 x3 p q

/-- What grid point t writes back to the second output is block t of the projection plus the bias row. -/
theorem flushed_resid (c : Dev nD) (t : Fin cfg0.N) :
    (dat0 (F := Ideal) V c).flushed 6 t = ((cfg0.win 6).blk t).view.read (Elt Ideal)
      (Cert.Gcn.projBias (V c (Pipeline.arrRef spec0 0)) (V c (Pipeline.arrRef spec0 2)) (V c (Pipeline.arrRef spec0 3))) := by
  show (cfg0.win 6).cut (grid0.coords t) ((dat0 V c).after 6 t) = _
  rw [after0_6]
  obtain ⟨e00, e01, e10, e11, e20, e21, e30, e31, e40, e41, e60, e61, e50, e51⟩ := blockIndex0 t
  funext j
  obtain ⟨p, q, rfl⟩ : ∃ (p : Fin 5000) (q : Fin 16), j = ix2 p q := ⟨j 0, j 1, eq_ix2 j⟩
  show out0_6 (iblk0 V c 0 t) (iblk0 V c 1 t) (iblk0 V c 2 t) (iblk0 V c 3 t) (iblk0 V c 4 t) (ix2 p q)
    = Cert.Gcn.projBias (V c (Pipeline.arrRef spec0 0)) (V c (Pipeline.arrRef spec0 2)) (V c (Pipeline.arrRef spec0 3))
        (((cfg0.win 6).blk t).view.emb (ix2 p q))
  rw [out_resid]
  have hN : t.val < 20 := lt_of_lt_of_eq t.isLt (N_0 : cfg0.N = 20)
  have hemb : ((cfg0.win 6).blk t).view.emb (ix2 p q) = ix2 (⟨t.val * 5000 + p.val, by omega⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 16 + 1 * q.val = q.val; omega
  rw [hemb]
  refine congrArg₂ (· + ·) (Finset.sum_congr rfl fun k _ => congrArg₂ (· * ·) ?_ ?_) ?_
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 2) (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 16 + 1 * q.val = q.val; omega
  · show V c (Pipeline.arrRef spec0 3) (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * q.val = q.val; omega

/-- An index of the array is in point t's block iff each coordinate is in the block's range on its axis. -/
theorem mem_block_resid (t : Fin cfg0.N) (i : S100000x16.Idx) :
    i ∈ ((cfg0.win 6).blk t).view.set ↔ ∀ a : Fin 2, win0_6.index t a * S5000x16.size a ≤ (i a).val
      ∧ (i a).val < win0_6.index t a * S5000x16.size a + S5000x16.size a := by
  show i ∈ ((View.whole main_v20_1).slice (win0_6.rect t)).set ↔ _
  rw [View.set_slice_whole, Rect.mem_set_unit]
  exact Iff.rfl

/-- Every index of the array is in the block of the grid point that is its row divided by the block height. -/
theorem cover_resid (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hlt : (i 0).val / 5000 < cfg0.N := lt_of_lt_of_eq (by omega) (N_0 : cfg0.N = 20).symm
  obtain ⟨t, ht⟩ : ∃ t : Fin cfg0.N, t.val = (i 0).val / 5000 := ⟨⟨_, hlt⟩, rfl⟩
  obtain ⟨e00, e01, e10, e11, e20, e21, e30, e31, e40, e41, e60, e61, e50, e51⟩ := blockIndex0 t
  refine ⟨t, flush0_6 t, ?_⟩
  rw [mem_block_resid]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 16 ≤ (i 1).val ∧ (i 1).val < win0_6.index t (1 : Fin 2) * 16 + 16
    omega

/-- The second output array after the region: the projection plus the bias row, of the arrays the region found. -/
theorem region0_resid (c : Dev nD) :
    (dat0 (F := Ideal) V c).arrAt 6 cfg0.N
      = Cert.Gcn.projBias (V c (Pipeline.arrRef spec0 0)) (V c (Pipeline.arrRef spec0 2)) (V c (Pipeline.arrRef spec0 3)) :=
  (dat0 (F := Ideal) V c).arrAt_eq_of_cover 6 _ (fun t _ => flushed_resid V c t) cover_resid

end Cert.KernelIdeal.RegionValue

end
-- ==== Proof.Region1.lean ====
/-
  The middle dense step, read as whole arrays.

  The region tiles the 100000 node rows in 20 blocks of 5000 rows. At grid point t the body sees rows
  5000·t … 5000·t+4999 of the aggregate, of the column of scales and of the residual, and the whole of the weight
  matrix and of the two bias rows. With h(p,k) = max(a(p,k)·s(p) + b(k), 0) + r(p,k) the hidden features, it leaves in
  its two output blocks h(p,k)·s(p) and (Σₖ h(p,k)·w(k,q)) + b'(q) for the block's rows p. Every entry depends only on
  row p of the row-indexed operands, so the block a point writes back is the block of ONE function of the whole
  arrays, and as the twenty blocks cover every row each array ends holding that function.
-/
import proofs.«150358_j45518063403398_2_alg».proof.Proof.Gen.KernelIdeal.Frame
import proofs.«150358_j45518063403398_2_alg».proof.Proof.Spec
import proofs.«150358_j45518063403398_2_alg».proof.Proof.LibPlainDot
import proofs.«150358_j45518063403398_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-- The hidden block at an entry: the aggregate scaled at its row, plus the bias row's entry of the column, cut at zero,
    plus the residual. -/
theorem pay_hidden (x0 : Vec Ideal S5000x16 .f32) (x1 : Vec Ideal S5000x1 .f32) (x2 : Vec Ideal S1x16 .f32)
    (x3 : Vec Ideal S5000x16 .f32) (p : Fin 5000) (k : Fin 16) :
    k1_pay1 (F := Ideal) x0 x1 x2 x3 (ix2 p k)
      = max (x0 (ix2 p k) * x1 (ix2 p (0 : Fin 1)) + x2 (ix2 (0 : Fin 1) k)) 0 + x3 (ix2 p k) := by
  unfold k1_pay1
  rw [addf_apply, maximumf_apply, addf_apply, mulf_apply, broadcast_apply]
  simp only [shapeCast_self]
  rw [Cert.LibColumn.broadcastTo_a1_ab_apply, broadcastTo_1b_ab_apply]
  show max _ (Ideal.ofBits .f32 0x00000000#32) + _ = _
  rw [Ideal.ofBits_zero_f32]

/-- The first output block of the second layer at an entry: the hidden block scaled at its row. -/
theorem pay_hiddenScaled (x0 : Vec Ideal S5000x16 .f32) (x1 : Vec Ideal S5000x1 .f32) (x2 : Vec Ideal S1x16 .f32)
    (x3 : Vec Ideal S5000x16 .f32) (x1' : Vec Ideal S5000x1 .f32) (p : Fin 5000) (k : Fin 16) :
    k1_pay2 (F := Ideal) x0 x1 x2 x3 x1' (ix2 p k)
      = (max (x0 (ix2 p k) * x1 (ix2 p (0 : Fin 1)) + x2 (ix2 (0 : Fin 1) k)) 0 + x3 (ix2 p k)) * x1' (ix2 p (0 : Fin 1)) := by
  unfold k1_pay2
  rw [mulf_apply, pay_hidden]
  simp only [shapeCast_self]
  rw [Cert.LibColumn.broadcastTo_a1_ab_apply]

/-- The second output block of the second layer at an entry: the hidden block times the weights, plus the bias row's
    entry of the column. -/
theorem pay_hiddenProj (x0 : Vec Ideal S5000x16 .f32) (x1 : Vec Ideal S5000x1 .f32) (x2 : Vec Ideal S1x16 .f32)
    (x3 : Vec Ideal S5000x16 .f32) (x4 : Vec Ideal S16x64 .f32) (x5 : Vec Ideal S1x64 .f32) (p : Fin 5000) (q : Fin 64) :
    k1_pay3 (F := Ideal) x0 x1 x2 x3 x4 x5 (ix2 p q)
      = (∑ k : Fin 16, (max (x0 (ix2 p k) * x1 (ix2 p (0 : Fin 1)) + x2 (ix2 (0 : Fin 1) k)) 0 + x3 (ix2 p k)) * x4 (ix2 k q))
        + x5 (ix2 (0 : Fin 1) q) := by
  unfold k1_pay3
  rw [addf_apply]
  refine congrArg₂ (· + ·) ?_ ?_
  · refine (Cert.LibPlainDot.matmul_zero_apply dot_S5000x16_S16x64_S5000x64_1_0_0_1_n_n rfl none _ _ p q).trans ?_
    refine Finset.sum_congr rfl fun k _ => congrArg₂ (· * ·) ?_ rfl
    exact pay_hidden x0 x1 x2 x3 p k
  · rw [shapeCast_self]; exact broadcastTo_1b_ab_apply _ _ p q

/-- The two zero offsets, however they are spelt. -/
theorem zeroOffsets1 : (![0, 0] : Fin 2 → Nat) = fun _ => 0 := funext fun a => by fin_cases a <;> rfl

/-- The second layer's index maps, decided over the twenty grid points: every row-indexed window's row block is the grid
    point itself and its column block zero; the weights and the two bias rows sit at block zero on both axes. -/
theorem blockIndex1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- What the body leaves in the first output's buffer, at an entry, over any blocks. -/
theorem out_hiddenScaled (x0 : Vec Ideal S5000x16 .f32) (x1 : Vec Ideal S5000x1 .f32) (x2 : Vec Ideal S1x16 .f32)
    (x3 : Vec Ideal S5000x16 .f32) (x4 : Vec Ideal S16x64 .f32) (x5 : Vec Ideal S1x64 .f32) (p : Fin 5000) (q : Fin 16) :
    out1_6 (F := Ideal) x0 x1 x2 x3 x4 x5 (ix2 p q)
      = (max (x0 (ix2 p q) * x1 (ix2 p (0 : Fin 1)) + x2 (ix2 (0 : Fin 1) q)) 0 + x3 (ix2 p q)) * x1 (ix2 p (0 : Fin 1)) := by
  unfold out1_6
  rw [View.canon_unit_zero zeroOffsets1]
  simp only [View.ld_unit_zero (S := S5000x16) zeroOffsets1, View.ld_unit_zero (S := S5000x1) zeroOffsets1,
    View.ld_unit_zero (S := S1x16) zeroOffsets1, View.ld_unit_zero (S := S16x64) zeroOffsets1,
    View.ld_unit_zero (S := S1x64) zeroOffsets1]
  exact pay_hiddenScaled x0 x1 x2 x3 x1 p q

/-- What the body leaves in the second output's buffer, at an entry, over any blocks. -/
theorem out_hiddenProj (x0 : Vec Ideal S5000x16 .f32) (x1 : Vec Ideal S5000x1 .f32) (x2 : Vec Ideal S1x16 .f32)
    (x3 : Vec Ideal S5000x16 .f32) (x4 : Vec Ideal S16x64 .f32) (x5 : Vec Ideal S1x64 .f32) (p : Fin 5000) (q : Fin 64) :
    out1_7 (F := Ideal) x0 x1 x2 x3 x4 x5 (ix2 p q)
      = (∑ k : Fin 16, (max (x0 (ix2 p k) * x1 (ix2 p (0 : Fin 1)) + x2 (ix2 (0 : Fin 1) k)) 0 + x3 (ix2 p k)) * x4 (ix2 k q))
        + x5 (ix2 (0 : Fin 1) q) := by
  unfold out1_7
  rw [View.canon_unit_zero zeroOffsets1]
  simp only [View.ld_unit_zero (S := S5000x16) zeroOffsets1, View.ld_unit_zero (S := S5000x1) zeroOffsets1,
    View.ld_unit_zero (S := S1x16) zeroOffsets1, View.ld_unit_zero (S := S16x64) zeroOffsets1,
    View.ld_unit_zero (S := S1x64) zeroOffsets1]
  exact pay_hiddenProj x0 x1 x2 x3 x4 x5 p q

variable (V : (c : Dev nD) → (b : Ref sig .tc) → Buf (Elt Ideal) ((c : Thread nD τ).loc b))

/-- What grid point t writes back to the first output is block t of the scaled hidden features of the arrays. -/
theorem flushed_hiddenScaled (c : Dev nD) (t : Fin cfg1.N) :
    (dat1 (F := Ideal) V c).flushed 6 t = ((cfg1.win 6).blk t).view.read (Elt Ideal)
      (Cert.Gcn.hiddenScaled (V c (Pipeline.arrRef spec1 0)) (V c (Pipeline.arrRef spec1 1)) (V c (Pipeline.arrRef spec1 2)) (V c (Pipeline.arrRef spec1 3))) := by
  show (cfg1.win 6).cut (grid1.coords t) ((dat1 V c).after 6 t) = _
  rw [after1_6]
  obtain ⟨e00, e01, e10, e11, e20, e21, e30, e31, e40, e41, e50, e51, e60, e61, e70, e71⟩ := blockIndex1 t
  funext j
  obtain ⟨p, q, rfl⟩ : ∃ (p : Fin 5000) (q : Fin 16), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
    = Cert.Gcn.hiddenScaled (V c (Pipeline.arrRef spec1 0)) (V c (Pipeline.arrRef spec1 1)) (V c (Pipeline.arrRef spec1 2)) (V c (Pipeline.arrRef spec1 3))
        (((cfg1.win 6).blk t).view.emb (ix2 p q))
  rw [out_hiddenScaled]
  have hN : t.val < 20 := lt_of_lt_of_eq t.isLt (N_1 : cfg1.N = 20)
  have hemb : ((cfg1.win 6).blk t).view.emb (ix2 p q) = ix2 (⟨t.val * 5000 + p.val, by omega⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 16 + 1 * q.val = q.val; omega
  rw [hemb]
  unfold Cert.Gcn.hiddenScaled Cert.Gcn.hidden
  refine congrArg₂ (· * ·) (congrArg₂ (· + ·) (congrArg₂ max (congrArg₂ (· + ·) (congrArg₂ (· * ·) ?_ ?_) ?_) rfl) ?_) ?_
  · show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * q.val = q.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * q.val = q.val; omega
  · show V c (Pipeline.arrRef spec1 3) (((cfg1.win 3).blk t).view.emb (ix2 p q)) = _
    refine congrArg _ (funext fun a => Fin.ext ?_)
    match a with
    | ⟨0, _⟩ => show win1_3.index t (0 : Fin 2) * 5000 + 1 * p.val = t.val * 5000 + p.val; omega
    | ⟨1, _⟩ => show win1_3.index t (1 : Fin 2) * 16 + 1 * q.val = q.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega

/-- An index of the array is in point t's block iff each coordinate is in the block's range on its axis. -/
theorem mem_block_hiddenScaled (t : Fin cfg1.N) (i : S100000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v31_0).slice (win1_6.rect t)).set ↔ _
  rw [View.set_slice_whole, Rect.mem_set_unit]
  exact Iff.rfl

/-- Every index of the array is in the block of the grid point that is its row divided by the block height. -/
theorem cover_hiddenScaled (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  have hlt : (i 0).val / 5000 < cfg1.N := lt_of_lt_of_eq (by omega) (N_1 : cfg1.N = 20).symm
  obtain ⟨t, ht⟩ : ∃ t : Fin cfg1.N, t.val = (i 0).val / 5000 := ⟨⟨_, hlt⟩, rfl⟩
  obtain ⟨e00, e01, e10, e11, e20, e21, e30, e31, e40, e41, e50, e51, e60, e61, e70, e71⟩ := blockIndex1 t
  refine ⟨t, flush1_6 t, ?_⟩
  rw [mem_block_hiddenScaled]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 16 ≤ (i 1).val ∧ (i 1).val < win1_6.index t (1 : Fin 2) * 16 + 16
    omega

/-- The first output array after the region: the scaled hidden features of the arrays the region found. -/
theorem region1_scaled (c : Dev nD) :
    (dat1 (F := Ideal) V c).arrAt 6 cfg1.N
      = Cert.Gcn.hiddenScaled (V c (Pipeline.arrRef spec1 0)) (V c (Pipeline.arrRef spec1 1)) (V c (Pipeline.arrRef spec1 2))
          (V c (Pipeline.arrRef spec1 3)) :=
  (dat1 (F := Ideal) V c).arrAt_eq_of_cover 6 _ (fun t _ => flushed_hiddenScaled V c t) cover_hiddenScaled

/-- What grid point t writes back to the second output is block t of the projected hidden features of the arrays. -/
theorem flushed_hiddenProj (c : Dev nD) (t : Fin cfg1.N) :
    (dat1 (F := Ideal) V c).flushed 7 t = ((cfg1.win 7).blk t).view.read (Elt Ideal)
      (Cert.Gcn.hiddenProj (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 7).cut (grid1.coords t) ((dat1 V c).after 7 t) = _
  rw [after1_7]
  obtain ⟨e00, e01, e10, e11, e20, e21, e30, e31, e40, e41, e50, e51, e60, e61, e70, e71⟩ := blockIndex1 t
  funext j
  obtain ⟨p, q, rfl⟩ : ∃ (p : Fin 5000) (q : Fin 64), j = ix2 p q := ⟨j 0, j 1, eq_ix2 j⟩
  show out1_7 (iblk1 V c 0 t) (iblk1 V c 1 t) (iblk1 V c 2 t) (iblk1 V c 3 t) (iblk1 V c 4 t) (iblk1 V c 5 t) (ix2 p q)
    = Cert.Gcn.hiddenProj (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
        (((cfg1.win 7).blk t).view.emb (ix2 p q))
  rw [out_hiddenProj]
  have hN : t.val < 20 := lt_of_lt_of_eq t.isLt (N_1 : cfg1.N = 20)
  have hemb : ((cfg1.win 7).blk t).view.emb (ix2 p q) = ix2 (⟨t.val * 5000 + p.val, by omega⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 64 + 1 * q.val = q.val; omega
  rw [hemb]
  unfold Cert.Gcn.hiddenProj Cert.Gcn.hidden
  refine congrArg₂ (· + ·) (Finset.sum_congr rfl fun k _ => congrArg₂ (· * ·) (congrArg₂ (· + ·)
    (congrArg₂ max (congrArg₂ (· + ·) (congrArg₂ (· * ·) ?_ ?_) ?_) rfl) ?_) ?_) ?_
  · show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * k.val = k.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c (Pipeline.arrRef spec1 2) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * k.val = k.val; omega
  · show V c (Pipeline.arrRef spec1 3) (((cfg1.win 3).blk t).view.emb (ix2 p k)) = _
    refine congrArg _ (funext fun a => Fin.ext ?_)
    match a with
    | ⟨0, _⟩ => show win1_3.index t (0 : Fin 2) * 5000 + 1 * p.val = t.val * 5000 + p.val; omega
    | ⟨1, _⟩ => show win1_3.index t (1 : Fin 2) * 16 + 1 * k.val = k.val; omega
  · show V c (Pipeline.arrRef spec1 4) (((cfg1.win 4).blk t).view.emb (ix2 k q)) = _
    refine congrArg _ (funext fun a => Fin.ext ?_)
    match a with
    | ⟨0, _⟩ => show win1_4.index t (0 : Fin 2) * 16 + 1 * k.val = k.val; omega
    | ⟨1, _⟩ => show win1_4.index t (1 : Fin 2) * 64 + 1 * q.val = q.val; omega
  · show V c (Pipeline.arrRef spec1 5) (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega

/-- An index of the array is in point t's block iff each coordinate is in the block's range on its axis. -/
theorem mem_block_hiddenProj (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v31_1).slice (win1_7.rect t)).set ↔ _
  rw [View.set_slice_whole, Rect.mem_set_unit]
  exact Iff.rfl

/-- Every index of the array is in the block of the grid point that is its row divided by the block height. -/
theorem cover_hiddenProj (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hlt : (i 0).val / 5000 < cfg1.N := lt_of_lt_of_eq (by omega) (N_1 : cfg1.N = 20).symm
  obtain ⟨t, ht⟩ : ∃ t : Fin cfg1.N, t.val = (i 0).val / 5000 := ⟨⟨_, hlt⟩, rfl⟩
  obtain ⟨e00, e01, e10, e11, e20, e21, e30, e31, e40, e41, e50, e51, e60, e61, e70, e71⟩ := blockIndex1 t
  refine ⟨t, flush1_7 t, ?_⟩
  rw [mem_block_hiddenProj]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 64 ≤ (i 1).val ∧ (i 1).val < win1_7.index t (1 : Fin 2) * 64 + 64
    omega

/-- The second output array after the region: the projected hidden features of the arrays the region found. -/
theorem region1_resid (c : Dev nD) :
    (dat1 (F := Ideal) V c).arrAt 7 cfg1.N
      = Cert.Gcn.hiddenProj (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 7 _ (fun t _ => flushed_hiddenProj V c t) cover_hiddenProj

end Cert.KernelIdeal.RegionValue

end
-- ==== Proof.Region2.lean ====
/-
  The last dense step, read as a whole array.

  The region tiles the 100000 node rows in 20 blocks of 5000 rows. At grid point t the body sees rows
  5000·t … 5000·t+4999 of the aggregate, of the column of scales and of the residual, and the whole of the weight
  matrix and of the bias row. It leaves, in its output block, max((Σₖ (a(p,k)·s(p))·w(k,q)) + b(q), 0) + r(p,q) for the
  block's rows p. Every entry depends only on row p of the row-indexed operands, so the block a point writes back is
  the block of ONE function of the whole arrays, and as the twenty blocks cover every row the array ends holding that
  function.
-/
import proofs.«150358_j45518063403398_2_alg».proof.Proof.Gen.KernelIdeal.Frame
import proofs.«150358_j45518063403398_2_alg».proof.Proof.Spec
import proofs.«150358_j45518063403398_2_alg».proof.Proof.LibPlainDot
import proofs.«150358_j45518063403398_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-- The output block of the last layer at an entry: the aggregate scaled at its row, times the weights, plus the bias
    row's entry of the column, cut at zero, plus the residual. -/
theorem pay_outLayer (x0 : Vec Ideal S5000x16 .f32) (x1 : Vec Ideal S5000x1 .f32) (x2 : Vec Ideal S16x64 .f32)
    (x3 : Vec Ideal S1x64 .f32) (x4 : Vec Ideal S5000x64 .f32) (p : Fin 5000) (q : Fin 64) :
    k2_pay1 (F := Ideal) x0 x1 x2 x3 x4 (ix2 p q)
      = max ((∑ k : Fin 16, (x0 (ix2 p k) * x1 (ix2 p (0 : Fin 1))) * x2 (ix2 k q)) + x3 (ix2 (0 : Fin 1) q)) 0
        + x4 (ix2 p q) := by
  unfold k2_pay1
  rw [addf_apply, maximumf_apply, addf_apply, broadcast_apply]
  simp only [shapeCast_self]
  rw [broadcastTo_1b_ab_apply]
  show max (_ + _) (Ideal.ofBits .f32 0x00000000#32) + _ = _
  rw [Ideal.ofBits_zero_f32]
  refine congrArg₂ (· + ·) (congrArg₂ max (congrArg₂ (· + ·) ?_ rfl) rfl) rfl
  refine (Cert.LibPlainDot.matmul_zero_apply dot_S5000x16_S16x64_S5000x64_1_0_0_1_n_n rfl none _ _ p q).trans ?_
  refine Finset.sum_congr rfl fun k _ => congrArg₂ (· * ·) ?_ rfl
  rw [truncf_apply, mulf_apply, Cert.LibColumn.broadcastTo_a1_ab_apply]

/-- The two zero offsets, however they are spelt. -/
theorem zeroOffsets2 : (![0, 0] : Fin 2 → Nat) = fun _ => 0 := funext fun a => by fin_cases a <;> rfl

/-- The last layer's index maps, decided over the twenty grid points: every row-indexed window's row block is the grid
    point itself and its column block zero; the weights and the bias row sit at block zero on both axes. -/
theorem blockIndex2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- What the body leaves in the output's buffer, at an entry, over any blocks. -/
theorem out_outLayer (x0 : Vec Ideal S5000x16 .f32) (x1 : Vec Ideal S5000x1 .f32) (x2 : Vec Ideal S16x64 .f32)
    (x3 : Vec Ideal S1x64 .f32) (x4 : Vec Ideal S5000x64 .f32) (p : Fin 5000) (q : Fin 64) :
    out2_5 (F := Ideal) x0 x1 x2 x3 x4 (ix2 p q)
      = max ((∑ k : Fin 16, (x0 (ix2 p k) * x1 (ix2 p (0 : Fin 1))) * x2 (ix2 k q)) + x3 (ix2 (0 : Fin 1) q)) 0
        + x4 (ix2 p q) := by
  unfold out2_5
  rw [View.canon_unit_zero zeroOffsets2]
  simp only [View.ld_unit_zero (S := S5000x16) zeroOffsets2, View.ld_unit_zero (S := S5000x1) zeroOffsets2,
    View.ld_unit_zero (S := S16x64) zeroOffsets2, View.ld_unit_zero (S := S1x64) zeroOffsets2,
    View.ld_unit_zero (S := S5000x64) zeroOffsets2]
  exact pay_outLayer x0 x1 x2 x3 x4 p q

variable (V : (c : Dev nD) → (b : Ref sig .tc) → Buf (Elt Ideal) ((c : Thread nD τ).loc b))

/-- What grid point t writes back to the output is block t of the output layer of the arrays. -/
theorem flushed_outLayer (c : Dev nD) (t : Fin cfg2.N) :
    (dat2 (F := Ideal) V c).flushed 5 t = ((cfg2.win 5).blk t).view.read (Elt Ideal)
      (Cert.Gcn.outLayer (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  obtain ⟨e00, e01, e10, e11, e20, e21, e30, e31, e40, e41, e50, e51⟩ := blockIndex2 t
  funext j
  obtain ⟨p, q, rfl⟩ : ∃ (p : Fin 5000) (q : Fin 64), j = ix2 p q := ⟨j 0, j 1, eq_ix2 j⟩
  show out2_5 (iblk2 V c 0 t) (iblk2 V c 1 t) (iblk2 V c 2 t) (iblk2 V c 3 t) (iblk2 V c 4 t) (ix2 p q)
    = Cert.Gcn.outLayer (V c (Pipeline.arrRef spec2 0)) (V c (Pipeline.arrRef spec2 1)) (V c (Pipeline.arrRef spec2 2)) (V c (Pipeline.arrRef spec2 3)) (V c (Pipeline.arrRef spec2 4))
        (((cfg2.win 5).blk t).view.emb (ix2 p q))
  rw [out_outLayer]
  have hN : t.val < 20 := lt_of_lt_of_eq t.isLt (N_2 : cfg2.N = 20)
  have hemb : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  rw [hemb]
  refine congrArg₂ (· + ·) (congrArg₂ max (congrArg₂ (· + ·)
    (Finset.sum_congr rfl fun k _ => congrArg₂ (· * ·) (congrArg₂ (· * ·) ?_ ?_) ?_) ?_) rfl) ?_
  · show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 16 + 1 * k.val = k.val; omega
  · show V c (Pipeline.arrRef spec2 1) (((cfg2.win 1).blk t).view.emb (ix2 p (0 : Fin 1))) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · show V c (Pipeline.arrRef spec2 2) (((cfg2.win 2).blk t).view.emb (ix2 k q)) = _
    refine congrArg _ (funext fun a => Fin.ext ?_)
    match a with
    | ⟨0, _⟩ => show win2_2.index t (0 : Fin 2) * 16 + 1 * k.val = k.val; omega
    | ⟨1, _⟩ => show win2_2.index t (1 : Fin 2) * 64 + 1 * q.val = q.val; omega
  · show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  · show V c (Pipeline.arrRef spec2 4) (((cfg2.win 4).blk t).view.emb (ix2 p q)) = _
    refine congrArg _ (funext fun a => Fin.ext ?_)
    match a with
    | ⟨0, _⟩ => show win2_4.index t (0 : Fin 2) * 5000 + 1 * p.val = t.val * 5000 + p.val; omega
    | ⟨1, _⟩ => show win2_4.index t (1 : Fin 2) * 64 + 1 * q.val = q.val; omega

/-- An index of the array is in point t's block iff each coordinate is in the block's range on its axis. -/
theorem mem_block_outLayer (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v42).slice (win2_5.rect t)).set ↔ _
  rw [View.set_slice_whole, Rect.mem_set_unit]
  exact Iff.rfl

/-- Every index of the array is in the block of the grid point that is its row divided by the block height. -/
theorem cover_outLayer (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hlt : (i 0).val / 5000 < cfg2.N := lt_of_lt_of_eq (by omega) (N_2 : cfg2.N = 20).symm
  obtain ⟨t, ht⟩ : ∃ t : Fin cfg2.N, t.val = (i 0).val / 5000 := ⟨⟨_, hlt⟩, rfl⟩
  obtain ⟨e00, e01, e10, e11, e20, e21, e30, e31, e40, e41, e50, e51⟩ := blockIndex2 t
  refine ⟨t, flush2_5 t, ?_⟩
  rw [mem_block_outLayer]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The output array after the region: the output layer of the arrays the region found. -/
theorem region2_out (c : Dev nD) :
    (dat2 (F := Ideal) V c).arrAt 5 cfg2.N
      = Cert.Gcn.outLayer (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed_outLayer V c t) cover_outLayer

end Cert.KernelIdeal.RegionValue

end
-- ==== Proof.RefLink.lean ====
/-
  The reference's run, read: its result buffer ends holding `refOut` of the argument arrays. The run's own term is the
  same composition of the same operations with every shared piece written out in full, so the two agree by unfolding.
-/
import proofs.«150358_j45518063403398_2_alg».proof.Proof.RefRunP
import proofs.«150358_j45518063403398_2_alg».proof.Proof.Graph

set_option maxRecDepth 16384

noncomputable section

namespace Cert.ReferenceIdeal.RefValue

open Cert.ReferenceIdeal Cert.ReferenceIdeal.Gen Idealize.ShloMosaic Idealize.ShloMosaic.TcCoe Idealize.SL.Sem

/-- The run's result term is `refOut` of the launch contents of the arguments. -/
theorem res_eq (m : (ℓ : Loc nD τ sig) → Buf (Elt Ideal) ℓ) (c : Dev nD) :
    Cert.ReferenceIdeal.ValueP.res_main_v98 (F := Ideal) m c
      = Cert.Gcn.refOut (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v98
  rfl

end Cert.ReferenceIdeal.RefValue

end
-- ==== Proof.LibRealSums.lean ====
/-
  Finite sums of products over the extended reals when every factor is a real number.

  On the extended reals multiplication does not distribute over addition at the infinities, so a factor cannot
  in general be moved across a sum. When every number involved is a real it can: the sums and products are then
  the coercions of the same sums and products of reals, where the ring laws hold. This file has the predicate
  "is a real number" with its closure under the operations that occur in a dense layer (sum, product, maximum,
  finite sum), and the one law a graph convolution needs: scaling source rows, summing them over the edges that
  reach a node, and then projecting with a matrix is the same as projecting every source row first and then
  scaling and summing —

      0 + ∑ₑ cₑ · (∑ₖ X(e,k) · W(k))  =  ∑ₖ (0 + ∑ₑ cₑ · X(e,k)) · W(k).

  Nothing here mentions a program.
-/
import Mathlib.Data.EReal.Basic
import Mathlib.Data.EReal.Operations
import Mathlib.Algebra.BigOperators.Ring.Finset
import Mathlib.Algebra.BigOperators.Group.Finset.Sigma

noncomputable section

namespace Cert.Lib.RealSums

open scoped BigOperators

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Scale, sum over the edges, then project = project, then scale and sum over the edges, when the scales, the rows
    and the matrix column are real. The `0 +` on both sides is the zero the accumulation starts from. -/
theorem agg_project {ι κ : Type*} [Fintype κ] (s : Finset ι) (c : ι → EReal) (X : ι → κ → EReal) (W : κ → EReal)
    (hc : ∀ e, IsReal (c e)) (hX : ∀ e k, IsReal (X e k)) (hW : ∀ k, IsReal (W k)) :
    (0 + ∑ e ∈ s, c e * ∑ k, X e k * W k) = ∑ k, (0 + ∑ e ∈ s, c e * X e k) * W k := by
  choose c' hc' using hc
  choose X' hX' using hX
  choose W' hW' using hW
  simp only [hc', hX', hW', zero_add, ← EReal.coe_mul, ← coe_sum]
  refine congrArg _ ?_
  simp only [Finset.mul_sum, Finset.sum_mul]
  rw [Finset.sum_comm]
  refine Finset.sum_congr rfl fun k _ => Finset.sum_congr rfl fun e _ => ?_
  ring

end Cert.Lib.RealSums

end
-- ==== Proof.Finite.lean ====
/-
  From "every float input is finite" to "every entry of every float input is a real number".

  The precondition is, for each of the nine float arrays a, the conjunction over all entries of the test
  |a i| < +infinity, and then the conjunction of those nine results. Over the extended reals |x| is max x (-x), so the
  test fails at both infinities: at plus infinity as itself, at minus infinity as its negation. A conjunction of
  one-bit words is 1 only when both operands are 1, and a reduction by conjunction over all axes that came out 1 met a
  1 at every entry. So where the whole predicate is 1, every entry of every array passed the test, and an extended
  real that passes it is neither infinity, hence the coercion of a real.

  The entry fact is proved once for one extended real, the array fact once for an arbitrary shape; the theorem applies
  the latter nine times and never looks inside an array.
-/
import proofs.«150358_j45518063403398_2_alg».proof.Pre_finite_inputs
import proofs.«150358_j45518063403398_2_alg».proof.Proof.Gen.Pre_finite_inputs
import proofs.«150358_j45518063403398_2_alg».proof.Proof.LibRealSums
import Idealize.ShloMosaic.PureOps.Ideal.Laws
import Idealize.ShloMosaic.Lib.ValueIdx
import Idealize.ShloMosaic.Lib.ReduceAll

noncomputable section

namespace Cert.Finite

open Cert.Pre_finite_inputs Idealize.ShloMosaic Cert.Lib.RealSums

/-- The rank-0 shape has exactly one index. -/
instance : Subsingleton S_.Idx := ⟨fun a b => funext fun d => d.elim0⟩

/-- The f32 pattern 0x7F800000 denotes plus infinity. -/
theorem ofBits_inf : Ideal.ofBits .f32 0x7F800000#32 = (⊤ : EReal) := by simp [Ideal.ofBits, Ideal.ieee]

/-- An extended real whose absolute value max x (-x) is strictly below plus infinity is a real number: plus infinity
    fails the comparison as itself, minus infinity as its negation. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- The array fact, for any shape: if the conjunction over all entries of |a i| < +inf came out 1, every entry is real. -/
theorem reals_of_all {S : Shape} {axes : List (Fin S.rank)} (a : FVec Ideal S .f32)
    (hb : S_.BroadcastsInDim S (![] : Fin 0 → Fin S.rank)) (hr : S.ReducesTo axes S_) (hu : 0 < S_.numel)
    (init : IVec S_ 1)
    (e : Host.reduce IntOp.andi
          (cmpf .olt (Host.absf a) (broadcastInDim S ![] hb (constant (F := Ideal) S_ .f32 0x7F800000#32))) init hr hu
          ValueIdx.ix0 = 1#1) :
    ∀ i, IsReal (a i) := by
  intro i
  have hi := Host.reduce_andi_all _ init hr hu ValueIdx.ix0 e i
  exact isReal_of_abs_lt (a i) hi

/-- Where the precondition holds (the predicate evaluates to the all-ones mask), every entry of every float input is
    a real number. -/
theorem reals_of_pre (a0 : FVec Ideal S100000x128 .f32) (a1 : IVec S2x3200000 32) (a2 : FVec Ideal S128x16 .f32)
    (a3 : FVec Ideal S16 .f32) (a4 : FVec Ideal S16x64 .f32) (a5 : FVec Ideal S64 .f32) (a6 : FVec Ideal S128x16 .f32)
    (a7 : FVec Ideal S16 .f32) (a8 : FVec Ideal S16x64 .f32) (a9 : FVec Ideal S64 .f32)
    (h : Cert.Pre_finite_inputs.fn (F := Ideal) a0 a1 a2 a3 a4 a5 a6 a7 a8 a9 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ValueIdx.ix0
  dsimp only [fn, fn_part1, fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨reals_of_all a0 _ _ _ _ e0, reals_of_all a2 _ _ _ _ e2, reals_of_all a3 _ _ _ _ e3,
    reals_of_all a4 _ _ _ _ e4, reals_of_all a5 _ _ _ _ e5, reals_of_all a6 _ _ _ _ e6,
    reals_of_all a7 _ _ _ _ e7, reals_of_all a8 _ _ _ _ e8, reals_of_all a9 _ _ _ _ e9⟩

end Cert.Finite

end
-- ==== Proof.Bridge.lean ====
/-
  The algebra that joins the two arrangements of the two-layer graph convolution, over abstract finite index types.

  Nodes n, edges e; `into n` is the set of edges summed at n, `src e` the node an edge reads, `tgt e` the node whose
  scale the reference multiplies in (it is n for every e in `into n`), `s` the per-node scale.

  One arrangement scales a node's features by s before the edge sum and the sum by s(n) after it, and in the second
  layer sums over the edges BEFORE projecting by W2. The other multiplies each edge's row by s(src e)·s(tgt e) and
  projects BEFORE the edge sum. They agree when everything is a real number: a real factor moves across a finite
  sum (`scale_out`), and projecting commutes with the edge sum (`project_out`). Both fail at infinities, which is
  why every quantity is first shown to be real.
-/
import proofs.«150358_j45518063403398_2_alg».proof.Proof.LibRealSums

noncomputable section

open scoped BigOperators

namespace Cert.Gcn.Bridge

open Cert.Lib.RealSums

/-- A real factor moves into a finite sum of real products. -/
theorem scale_out {ι : Type*} (S : Finset ι) (a u : ι → EReal) (c : EReal)
    (ha : ∀ e, IsReal (a e)) (hu : ∀ e, IsReal (u e)) (hc : IsReal c) :
    (0 + ∑ e ∈ S, a e * u e) * c = 0 + ∑ e ∈ S, a e * (u e * c) := by
  choose a' ha' using ha
  choose u' hu' using hu
  obtain ⟨c', rfl⟩ := hc
  simp only [ha', hu', zero_add, ← EReal.coe_mul, ← coe_sum]
  refine congrArg _ ?_
  rw [Finset.sum_mul]
  exact Finset.sum_congr rfl fun e _ => by ring

/-- Scale the edge sum, then project = project each edge's row, then scale and sum. -/
theorem project_out {ι κ : Type*} [Fintype κ] (S : Finset ι) (H : ι → κ → EReal) (u : ι → EReal) (c : EReal)
    (W : κ → EReal) (hH : ∀ e k, IsReal (H e k)) (hu : ∀ e, IsReal (u e)) (hc : IsReal c) (hW : ∀ k, IsReal (W k)) :
    ∑ k, ((0 + ∑ e ∈ S, H e k * u e) * c) * W k = 0 + ∑ e ∈ S, (∑ k, H e k * W k) * (u e * c) := by
  choose H' hH' using hH
  choose u' hu' using hu
  obtain ⟨c', rfl⟩ := hc
  choose W' hW' using hW
  simp only [hH', hu', hW', zero_add, ← EReal.coe_mul, ← coe_sum]
  refine congrArg _ ?_
  simp only [Finset.sum_mul]
  rw [Finset.sum_comm]
  exact Finset.sum_congr rfl fun e _ => Finset.sum_congr rfl fun k _ => by ring

section Layers

variable {Nd Ed I K Q : Type*} [Fintype I] [Fintype K] [Fintype Q]
variable (into : Nd → Finset Ed) (src tgt : Ed → Nd) (s : Nd → EReal)
variable (x : Nd → I → EReal) (W1 tW1 : I → K → EReal) (b1 tb1 : K → EReal)
variable (W2 tW2 : K → Q → EReal) (b2 tb2 : Q → EReal)

/-- The hidden features, scaling before and after the edge sum. -/
def kHid (n : Nd) (k : K) : EReal :=
  max ((0 + ∑ e ∈ into n, (∑ i, x (src e) i * W1 i k) * s (src e)) * s n + b1 k) 0 + ((∑ i, x n i * tW1 i k) + tb1 k)

/-- The hidden features, each edge's row times the edge's normalization. -/
def rHid (n : Nd) (k : K) : EReal :=
  max ((0 + ∑ e ∈ into n, (∑ i, x (src e) i * W1 i k) * (s (src e) * s (tgt e))) + b1 k) 0
    + ((∑ i, x n i * tW1 i k) + tb1 k)

/-- The output, aggregating before projecting. -/
def kOut (n : Nd) (q : Q) : EReal :=
  max ((∑ k, ((0 + ∑ e ∈ into n, kHid into src s x W1 tW1 b1 tb1 (src e) k * s (src e)) * s n) * W2 k q) + b2 q) 0
    + ((∑ k, kHid into src s x W1 tW1 b1 tb1 n k * tW2 k q) + tb2 q)

/-- The output, projecting before aggregating. -/
def rOut (n : Nd) (q : Q) : EReal :=
  max ((0 + ∑ e ∈ into n, (∑ k, rHid into src tgt s x W1 tW1 b1 tb1 (src e) k * W2 k q) * (s (src e) * s (tgt e))) + b2 q) 0
    + ((∑ k, rHid into src tgt s x W1 tW1 b1 tb1 n k * tW2 k q) + tb2 q)

variable (htgt : ∀ n, ∀ e ∈ into n, tgt e = n) (hs : ∀ n, IsReal (s n)) (hx : ∀ n i, IsReal (x n i))
  (hW1 : ∀ i k, IsReal (W1 i k)) (htW1 : ∀ i k, IsReal (tW1 i k)) (hb1 : ∀ k, IsReal (b1 k)) (htb1 : ∀ k, IsReal (tb1 k))
  (hW2 : ∀ k q, IsReal (W2 k q))

include htgt hs hx hW1 in
theorem kHid_eq_rHid (n : Nd) (k : K) :
    kHid into src s x W1 tW1 b1 tb1 n k = rHid into src tgt s x W1 tW1 b1 tb1 n k := by
  unfold kHid rHid
  rw [scale_out (into n) (fun e => ∑ i, x (src e) i * W1 i k) (fun e => s (src e)) (s n)
    (fun e => IsReal.sum _ _ fun i _ => (hx _ i).mul (hW1 i k)) (fun e => hs _) (hs n)]
  congr 4
  exact Finset.sum_congr rfl fun e he => by rw [htgt n e he]

include hs hx hW1 htW1 hb1 htb1 in
theorem kHid_real (n : Nd) (k : K) : IsReal (kHid into src s x W1 tW1 b1 tb1 n k) := by
  unfold kHid
  refine IsReal.add (IsReal.max (IsReal.add (IsReal.mul (IsReal.add IsReal.zero (IsReal.sum _ _ fun e _ => ?_)) (hs n)) (hb1 k)) IsReal.zero)
    (IsReal.add (IsReal.sum _ _ fun i _ => (hx n i).mul (htW1 i k)) (htb1 k))
  exact (IsReal.sum _ _ fun i _ => (hx _ i).mul (hW1 i k)).mul (hs _)

include htgt hs hx hW1 htW1 hb1 htb1 hW2 in
theorem kOut_eq_rOut (n : Nd) (q : Q) :
    kOut into src s x W1 tW1 b1 tb1 W2 tW2 b2 tb2 n q = rOut into src tgt s x W1 tW1 b1 tb1 W2 tW2 b2 tb2 n q := by
  have hH : ∀ n k, rHid into src tgt s x W1 tW1 b1 tb1 n k = kHid into src s x W1 tW1 b1 tb1 n k :=
    fun n k => (kHid_eq_rHid into src tgt s x W1 tW1 b1 tb1 htgt hs hx hW1 n k).symm
  unfold kOut rOut
  simp only [hH]
  rw [project_out (into n) (fun e k => kHid into src s x W1 tW1 b1 tb1 (src e) k) (fun e => s (src e)) (s n)
    (fun k => W2 k q) (fun e k => kHid_real into src s x W1 tW1 b1 tb1 hs hx hW1 htW1 hb1 htb1 _ k) (fun e => hs _) (hs n)
    (fun k => hW2 k q)]
  congr 4
  exact Finset.sum_congr rfl fun e he => by rw [htgt n e he]

end Layers

end Cert.Gcn.Bridge

end
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.LibAggregate.lean ====
/-
  One graph aggregation read at one entry, over the extended reals, for any sizes.

  The aggregation starts from the zero `[N, D]` array and scatter-adds, along the target indices `ci`, the `E` rows
  `nrm[e] · feat[ri[e], :]`: the per-edge normalization, a length-`E` vector broadcast to a column `[E, 1]` and then to
  `[E, D]`, times the rows of `feat` gathered at the source indices `ri`. Entry `(n, q)` of the result is
  `0 + ∑ nrm[e] · feat[r(e), q]` over the edges `e` whose target word `ci[e, 0]`, read signed, is `n`, where `r(e)` is the
  source word `ri[e, 0]` read signed and clamped into `[0, N − 1]`.
-/
import proofs.«150358_j45518063403398_2_alg».proof.Proof.LibRowGatherScatter
import Idealize.ShloMosaic.PureOps.Ideal.Laws
import Idealize.ShloMosaic.Lib.IdealHost
import Idealize.ShloMosaic.Lib.Pipeline.Value

noncomputable section

open scoped BigOperators

namespace Cert.Lib.Aggregate

open Idealize.ShloMosaic Idealize.ShloMosaic.ValueIdx Cert.Lib.RowGatherScatter

/-- A length-`E` vector broadcast to a column `[E, 1]` and then across `D` columns, read at `(e, q)`: entry `e` of the
    vector, whatever the column. -/
theorem bcast_col_apply {E D : ℕ} {α : Type} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (q : Fin D) :
    broadcastInDim ⟨2, ![E, D]⟩ ![0, 1] h2 (broadcastInDim ⟨2, ![E, 1]⟩ ![0] h1 v) (ix2 e q) = v (ix1 e) := by
  -- the column at (e, 0): axis 0 keeps the row (row 0 when E = 1, the only row), the unit axis 1 reads 0
  refine (broadcastInDim_apply ![0, 1] h2 _ (ix2 e q) (ix2 e (0 : Fin 1)) (fun a => ?_)).trans ?_
  · match a with
    | ⟨0, _⟩ =>
      show e.val = if E = 1 then 0 else e.val
      split_ifs with hE
      · have := e.isLt; omega
      · rfl
    | ⟨1, _⟩ =>
      exact (if_pos rfl).symm
  -- the vector at e
  · refine broadcastInDim_apply ![0] h1 v (ix2 e (0 : Fin 1)) (ix1 e) (fun a => ?_)
    match a with
    | ⟨0, _⟩ =>
      show e.val = if E = 1 then 0 else e.val
      split_ifs with hE
      · have := e.isLt; omega
      · rfl

/-- THE AGGREGATION READ AT `(n, q)`: zero plus the sum, over the edges `e` whose target word `ci[e, 0]` read signed
    is `n`, of the edge's normalization times entry `q` of the source row `srcRow (ri[e, 0])` of `feat`. -/
theorem aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32)
    (n : Fin N) (q : Fin D) :
    Host.scatterAdd (F := Ideal) (rowScatter N E D wfs)
        (broadcastInDim ⟨2, ![N, D]⟩ ![] hb0 (constant ⟨0, ![]⟩ .f32 0x00000000#32)) ci
        (mulf (broadcastInDim ⟨2, ![E, D]⟩ ![0, 1] h2 (broadcastInDim ⟨2, ![E, 1]⟩ ![0] h1 nrm))
          (Host.gather (rowGather N E D wfg) feat ri)) (ix2 n q)
      = 0 + ∑ e ∈ Finset.univ.filter (fun e : Fin E => (ci (ix2 e 0)).toInt = (n.val : ℤ)),
          nrm (ix1 e) * feat (ix2 (srcRow N hN (ri (ix2 e 0))) q) := by
  unfold Host.scatterAdd
  rw [Ideal.hostScatterAdd_def, scatter_rows_apply]
  congr 1
  · -- the operand is the zero array
    rw [broadcastInDim_scalar_apply, constant_apply, Ideal.ofBits_zero_f32]
  · -- each update entry is the edge's normalization times the gathered entry
    refine Finset.sum_congr rfl (fun e _ => ?_)
    rw [mulf_apply, gather_rows_apply hN, bcast_col_apply]

end Cert.Lib.Aggregate

end
-- ==== Proof.LibVecGather.lean ====
/-
  A flat array gathered at a column of start indices, read at an entry.

  Indexing a length-N array by a list of E positions is a gather whose start indices form an E×1 array and whose
  result has one entry per position.  Entry `e` of the result is the array at the position word `idx[e, 0]`, read
  as a signed integer and clamped into `[0, N − 1]` (a negative word reads entry 0, a word beyond the end the last
  entry) — the same source position as for a row gather of an N×D matrix at the same start indices.
-/
import Idealize.ShloMosaic.Lib.ValueIdx

noncomputable section

namespace Cert.Lib.VecGather

open Idealize.ShloMosaic Idealize.ShloMosaic.ValueIdx

/-- The dimension numbers of the gather: operand `[N]`, start indices `[E, 1]`, result `[E]`; no offset axis, the
    operand's one axis collapsed and named by the start index, slices of one entry. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the start word `idx[e, 0]`, read signed and clamped into `[0, N − 1]`. -/
theorem gather_vec_apply {N E w : ℕ} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.VecGather

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.Entry.lean ====
/-
  Both results read at an entry (n, q), in the abstract form the algebra (Bridge.lean) is stated in.

  The edge data, all computed from the edge array `ei`:
    into n   the index words e of the target vector whose value, read signed, is n (the rows the scatter sums at n)
    src e    the source word of e as array indexing reads it (a negative word wrapped, then clamped to a valid row)
    tgt e    the target word of e read the same way (the row the reference's second lookup of the scale reads)
    sc n     the scale of node n: the inverse square root of its degree
  An aggregation read at (n, k) is zero plus the sum over `into n` of the gathered rows' entries; a product of an
  M×K by a K×N matrix is the sum over k; the broadcast of a bias is its entry of the column; the scale column at
  (p, 0) is the scale of p. With these the kernel's composition is `kOut` and the reference's `rOut`, entry by entry.
-/
import proofs.«150358_j45518063403398_2_alg».proof.Proof.KerGraph
import proofs.«150358_j45518063403398_2_alg».proof.Proof.Bridge
import proofs.«150358_j45518063403398_2_alg».proof.Proof.LibAggregate
import proofs.«150358_j45518063403398_2_alg».proof.Proof.LibVecGather
import proofs.«150358_j45518063403398_2_alg».proof.Proof.LibPlainDot
import proofs.«150358_j45518063403398_2_alg».proof.Proof.LibColumn
import proofs.«150358_j45518063403398_2_alg».proof.Proof.LibBiasRow
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

open scoped BigOperators

namespace Cert.Gcn

open Idealize.ShloMosaic Idealize.ShloMosaic.ValueIdx Cert.Lib.RowGatherScatter Cert.Lib.VecGather

/-! ## General forms, for any dimension record equal to the row scatter / row gather / vector gather / plain product -/

/-- A plain aggregation read at (n, q). -/
theorem aggPlain_at {N E D w : ℕ} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatter N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGather N E D wfg)
    (hb0 : (⟨0, ![]⟩ : Shape).BroadcastsInDim ⟨2, ![N, D]⟩ ![])
    (ci ri : IVec ⟨2, ![E, 1]⟩ w) (feat : FVec Ideal ⟨2, ![N, D]⟩ .f32) (n : Fin N) (q : Fin D) :
    Host.scatterAdd (F := Ideal) ds (broadcastInDim ⟨2, ![N, D]⟩ ![] hb0 (constant ⟨0, ![]⟩ .f32 0x00000000#32)) ci
        (Host.gather dg feat ri) (ix2 n q)
      = 0 + ∑ e ∈ Finset.univ.filter (fun e : Fin E => (ci (ix2 e 0)).toInt = (n.val : ℤ)),
          feat (ix2 (srcRow N hN (ri (ix2 e 0))) q) := by
  subst hds hdg
  unfold Host.scatterAdd
  rw [Ideal.hostScatterAdd_def, scatter_rows_apply]
  congr 1
  · rw [broadcastInDim_scalar_apply, constant_apply, Ideal.ofBits_zero_f32]
  · exact Finset.sum_congr rfl fun e _ => gather_rows_apply hN wfg feat ri e q

/-- A normalized aggregation (each gathered row times its edge's factor) read at (n, q). -/
theorem aggNorm_at {N E D w : ℕ} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatter N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGather N E D wfg)
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32) (n : Fin N) (q : Fin D) :
    Host.scatterAdd (F := Ideal) ds (broadcastInDim ⟨2, ![N, D]⟩ ![] hb0 (constant ⟨0, ![]⟩ .f32 0x00000000#32)) ci
        (mulf (Host.gather dg feat ri) (broadcastInDim ⟨2, ![E, D]⟩ ![0, 1] h2 (broadcastInDim ⟨2, ![E, 1]⟩ ![0] h1 nrm))) (ix2 n q)
      = 0 + ∑ e ∈ Finset.univ.filter (fun e : Fin E => (ci (ix2 e 0)).toInt = (n.val : ℤ)),
          feat (ix2 (srcRow N hN (ri (ix2 e 0))) q) * nrm (ix1 e) := by
  subst hds hdg
  unfold Host.scatterAdd
  rw [Ideal.hostScatterAdd_def, scatter_rows_apply]
  congr 1
  · rw [broadcastInDim_scalar_apply, constant_apply, Ideal.ofBits_zero_f32]
  · refine Finset.sum_congr rfl fun e _ => ?_
    rw [mulf_apply, gather_rows_apply hN, Cert.Lib.Aggregate.bcast_col_apply]

/-- A vector gathered at a column of index words, read at e. -/
theorem vgather_at {N E w : ℕ} (hN : 0 < N) (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGather N E wf) {α : Type}
    (x : (⟨1, ![N]⟩ : Shape).Idx → α) (idx : IVec ⟨2, ![E, 1]⟩ w) (e : Fin E) :
    Host.gather d x idx (ix1 e) = x (ix1 (srcRow N hN (idx (ix2 e 0)))) := by
  subst hd
  exact gather_vec_apply hN wf x idx e

/-- A plain product on the host read at (p, q). -/
theorem dot_at {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (p : Fin M) (q : Fin N) :
    Host.dotGeneral d none l r (ix2 p q) = ∑ k : Fin K, l (ix2 p k) * r (ix2 k q) :=
  Cert.LibPlainDot.dotGeneral_apply d hd none .single l r p q

/-- A bias broadcast to a row and then over the rows, read at (p, q). -/
theorem bias_at {M N : ℕ} (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) :=
  Cert.Row.bcast_row_apply b h1 h2 p q

/-- The zero array read anywhere. -/
theorem zeros_at {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-! ## The edge data -/

theorem nodes_pos : 0 < 100000 := by norm_num

variable (ei : IVec ⟨2, ![2, 3200000]⟩ 32)

/-- The index words summed at node n. -/
def into (n : Fin 100000) : Finset (Fin 3300000) :=
  Finset.univ.filter fun e : Fin 3300000 => (asCol (colv ei) (ix2 e (0 : Fin 1))).toInt = (n.val : ℤ)

/-- The row an edge's features are read from. -/
def src (e : Fin 3300000) : Fin 100000 := srcRow 100000 nodes_pos (asCol (normIdx (rowv ei)) (ix2 e (0 : Fin 1)))

/-- The row the reference reads the target's scale from. -/
def tgt (e : Fin 3300000) : Fin 100000 := srcRow 100000 nodes_pos (asCol (normIdx (colv ei)) (ix2 e (0 : Fin 1)))

/-- The scale of a node. -/
def sc (n : Fin 100000) : EReal := isq ei (ix1 n)

/-- A matrix as a function of two coordinates; a vector as a function of one. -/
def mat {A B : ℕ} (a : FVec Ideal ⟨2, ![A, B]⟩ .f32) : Fin A → Fin B → EReal := fun p q => a (ix2 p q)
def vec {A : ℕ} (b : FVec Ideal ⟨1, ![A]⟩ .f32) : Fin A → EReal := fun k => b (ix1 k)

/-! ## The shared pieces at an entry -/

theorem aggPlain_apply (feat : FVec Ideal ⟨2, ![100000, 16]⟩ .f32) (n : Fin 100000) (k : Fin 16) :
    aggPlain ei feat (ix2 n k) = 0 + ∑ e ∈ into ei n, feat (ix2 (src ei e) k) :=
  aggPlain_at nodes_pos _ _ rfl _ _ rfl _ (asCol (colv ei)) (asCol (normIdx (rowv ei))) feat n k

theorem nrm_apply (e : Fin 3300000) : nrm ei (ix1 e) = sc ei (src ei e) * sc ei (tgt ei e) := by
  unfold nrm
  rw [mulf_apply, vgather_at nodes_pos Cert.ReferenceIdeal.gather_S100000_S3300000x1_S3300000_n_0_n_n_0_1_1 _ rfl, vgather_at nodes_pos Cert.ReferenceIdeal.gather_S100000_S3300000x1_S3300000_n_0_n_n_0_1_1 _ rfl]
  rfl

theorem aggNorm16_apply (feat : FVec Ideal ⟨2, ![100000, 16]⟩ .f32) (n : Fin 100000) (k : Fin 16) :
    aggNorm16 ei feat (ix2 n k) = 0 + ∑ e ∈ into ei n, feat (ix2 (src ei e) k) * (sc ei (src ei e) * sc ei (tgt ei e)) := by
  refine (aggNorm_at nodes_pos _ _ rfl _ _ rfl _ _ _ (nrm ei) (asCol (colv ei)) (asCol (normIdx (rowv ei))) feat n k).trans ?_
  exact congrArg _ (Finset.sum_congr rfl fun e _ => by rw [nrm_apply]; rfl)

theorem aggNorm64_apply (feat : FVec Ideal ⟨2, ![100000, 64]⟩ .f32) (n : Fin 100000) (q : Fin 64) :
    aggNorm64 ei feat (ix2 n q) = 0 + ∑ e ∈ into ei n, feat (ix2 (src ei e) q) * (sc ei (src ei e) * sc ei (tgt ei e)) := by
  refine (aggNorm_at nodes_pos _ _ rfl _ _ rfl _ _ _ (nrm ei) (asCol (colv ei)) (asCol (normIdx (rowv ei))) feat n q).trans ?_
  exact congrArg _ (Finset.sum_congr rfl fun e _ => by rw [nrm_apply]; rfl)

theorem isqCol_apply (p : Fin 100000) (u : Fin 1) : isqCol ei (ix2 p u) = sc ei p :=
  Cert.LibColumn.shapeCast_a_a1_apply (isq ei) _ p u

theorem rowOf16_apply (b : FVec Ideal ⟨1, ![16]⟩ .f32) (u : Fin 1) (k : Fin 16) : rowOf16 b (ix2 u k) = vec b k := by
  unfold rowOf16; rw [Cert.Row.shapeCast_row]; rfl

theorem rowOf64_apply (b : FVec Ideal ⟨1, ![64]⟩ .f32) (u : Fin 1) (q : Fin 64) : rowOf64 b (ix2 u q) = vec b q := by
  unfold rowOf64; rw [Cert.Row.shapeCast_row]; rfl

variable (x : FVec Ideal ⟨2, ![100000, 128]⟩ .f32) (W1 : FVec Ideal ⟨2, ![128, 16]⟩ .f32) (b1 : FVec Ideal ⟨1, ![16]⟩ .f32)
  (W2 : FVec Ideal ⟨2, ![16, 64]⟩ .f32) (b2 : FVec Ideal ⟨1, ![64]⟩ .f32) (tW1 : FVec Ideal ⟨2, ![128, 16]⟩ .f32)
  (tb1 : FVec Ideal ⟨1, ![16]⟩ .f32) (tW2 : FVec Ideal ⟨2, ![16, 64]⟩ .f32) (tb2 : FVec Ideal ⟨1, ![64]⟩ .f32)

/-! ## The kernel's composition at an entry -/

theorem ker_hidden_apply (j : Fin 100000) (k : Fin 16) :
    hidden (kerAgg1 ei x W1) (isqCol ei) (rowOf16 b1) (projBias x tW1 (rowOf16 tb1)) (ix2 j k)
      = Bridge.kHid (into ei) (src ei) (sc ei) (mat x) (mat W1) (mat tW1) (vec b1) (vec tb1) j k := by
  have hagg : kerAgg1 ei x W1 (ix2 j k)
      = 0 + ∑ e ∈ into ei j, (∑ i, mat x (src ei e) i * mat W1 i k) * sc ei (src ei e) := by
    unfold kerAgg1
    rw [aggPlain_apply]
    refine congrArg _ (Finset.sum_congr rfl fun e _ => ?_)
    show (∑ i : Fin 128, x (ix2 (src ei e) i) * W1 (ix2 i k)) * isqCol ei (ix2 (src ei e) (0 : Fin 1)) = _
    rw [isqCol_apply]; rfl
  have hid : projBias x tW1 (rowOf16 tb1) (ix2 j k) = (∑ i, mat x j i * mat tW1 i k) + vec tb1 k := by
    show (∑ i : Fin 128, x (ix2 j i) * tW1 (ix2 i k)) + rowOf16 tb1 (ix2 (0 : Fin 1) k) = _
    rw [rowOf16_apply]; rfl
  show max (kerAgg1 ei x W1 (ix2 j k) * isqCol ei (ix2 j (0 : Fin 1)) + rowOf16 b1 (ix2 (0 : Fin 1) k)) 0
    + projBias x tW1 (rowOf16 tb1) (ix2 j k) = _
  rw [hagg, hid, isqCol_apply, rowOf16_apply]
  rfl

/-- THE KERNEL'S RESULT AT (n, q). -/
theorem kerOut_apply (n : Fin 100000) (q : Fin 64) :
    kerOut ei x W1 b1 W2 b2 tW1 tb1 tW2 tb2 (ix2 n q)
      = Bridge.kOut (into ei) (src ei) (sc ei) (mat x) (mat W1) (mat tW1) (vec b1) (vec tb1) (mat W2) (mat tW2) (vec b2) (vec tb2) n q := by
  have hagg : ∀ k : Fin 16, aggPlain ei (kerHidScaled ei x W1 b1 tW1 tb1) (ix2 n k)
      = 0 + ∑ e ∈ into ei n, Bridge.kHid (into ei) (src ei) (sc ei) (mat x) (mat W1) (mat tW1) (vec b1) (vec tb1) (src ei e) k
          * sc ei (src ei e) := by
    intro k
    rw [aggPlain_apply]
    refine congrArg _ (Finset.sum_congr rfl fun e _ => ?_)
    show hidden (kerAgg1 ei x W1) (isqCol ei) (rowOf16 b1) (projBias x tW1 (rowOf16 tb1)) (ix2 (src ei e) k)
      * isqCol ei (ix2 (src ei e) (0 : Fin 1)) = _
    rw [ker_hidden_apply, isqCol_apply]
  have hres : kerResid2 ei x W1 b1 tW1 tb1 tW2 tb2 (ix2 n q)
      = (∑ k, Bridge.kHid (into ei) (src ei) (sc ei) (mat x) (mat W1) (mat tW1) (vec b1) (vec tb1) n k * mat tW2 k q) + vec tb2 q := by
    show (∑ k : Fin 16, hidden (kerAgg1 ei x W1) (isqCol ei) (rowOf16 b1) (projBias x tW1 (rowOf16 tb1)) (ix2 n k) * tW2 (ix2 k q))
      + rowOf64 tb2 (ix2 (0 : Fin 1) q) = _
    rw [rowOf64_apply]
    exact congrArg (· + vec tb2 q) (Finset.sum_congr rfl fun k _ => by rw [ker_hidden_apply]; rfl)
  show max ((∑ k : Fin 16, (aggPlain ei (kerHidScaled ei x W1 b1 tW1 tb1) (ix2 n k) * isqCol ei (ix2 n (0 : Fin 1))) * W2 (ix2 k q))
      + rowOf64 b2 (ix2 (0 : Fin 1) q)) 0 + kerResid2 ei x W1 b1 tW1 tb1 tW2 tb2 (ix2 n q) = _
  rw [hres, rowOf64_apply, isqCol_apply]
  simp only [hagg]
  rfl

/-! ## The reference's composition at an entry -/

/-- One layer's outer shape at an entry, for ANY aggregate `A` and residual product `P`: the aggregate plus the bias,
    cut at zero, plus the residual product plus its bias. -/
theorem layer_at {M N : ℕ} (A P : FVec Ideal ⟨2, ![M, N]⟩ .f32) (b tb : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    addf (maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)))
      (addf P (broadcastInDim ⟨2, ![M, N]⟩ ![0, 1] h2 (broadcastInDim ⟨2, ![1, N]⟩ ![1] h1 tb))) (ix2 p q)
      = max (A (ix2 p q) + b (ix1 q)) 0 + (P (ix2 p q) + tb (ix1 q)) := by
  rw [addf_apply, maximumf_apply, addf_apply, addf_apply, bias_at, bias_at, zeros_at]

theorem ref_hidden_apply (j : Fin 100000) (k : Fin 16) :
    refHidden ei x W1 b1 tW1 tb1 (ix2 j k)
      = Bridge.rHid (into ei) (src ei) (tgt ei) (sc ei) (mat x) (mat W1) (mat tW1) (vec b1) (vec tb1) j k := by
  unfold refHidden
  rw [layer_at, aggNorm16_apply, dot_at Cert.ReferenceIdeal.dot_S100000x128_S128x16_S100000x16_1_0_0_1_n_n rfl]
  unfold Bridge.rHid
  refine congrArg₂ (· + ·) (congrArg (max · 0) (congrArg (· + b1 (ix1 k)) (congrArg (fun t => 0 + t)
    (Finset.sum_congr rfl fun e _ => ?_)))) rfl
  rw [dot_at Cert.ReferenceIdeal.dot_S100000x128_S128x16_S100000x16_1_0_0_1_n_n rfl]; rfl

/-- THE REFERENCE'S RESULT AT (n, q). -/
theorem refOut_apply (n : Fin 100000) (q : Fin 64) :
    refOut ei x W1 b1 W2 b2 tW1 tb1 tW2 tb2 (ix2 n q)
      = Bridge.rOut (into ei) (src ei) (tgt ei) (sc ei) (mat x) (mat W1) (mat tW1) (vec b1) (vec tb1) (mat W2) (mat tW2) (vec b2)
          (vec tb2) n q := by
  have hH : ∀ (j : Fin 100000) (k : Fin 16), refHidden ei x W1 b1 tW1 tb1 (ix2 j k)
      = Bridge.rHid (into ei) (src ei) (tgt ei) (sc ei) (mat x) (mat W1) (mat tW1) (vec b1) (vec tb1) j k :=
    ref_hidden_apply ei x W1 b1 tW1 tb1
  unfold refOut Bridge.rOut
  generalize refHidden ei x W1 b1 tW1 tb1 = H at hH ⊢
  generalize Bridge.rHid (into ei) (src ei) (tgt ei) (sc ei) (mat x) (mat W1) (mat tW1) (vec b1) (vec tb1) = R at hH ⊢
  refine (layer_at (M := 100000) (N := 64) _ _ b2 tb2 _ _ _ n q).trans ?_
  refine congrArg₂ (· + ·) (congrArg (max · 0) (congrArg (· + b2 (ix1 q)) ?_)) (congrArg (· + tb2 (ix1 q)) ?_)
  · refine (aggNorm64_apply ei _ n q).trans (congrArg (fun t => 0 + t) (Finset.sum_congr rfl fun e _ => ?_))
    refine congrArg (· * (sc ei (src ei e) * sc ei (tgt ei e))) ?_
    refine (dot_at Cert.ReferenceIdeal.dot_S100000x16_S16x64_S100000x64_1_0_0_1_n_n rfl H W2 (src ei e) q).trans (Finset.sum_congr rfl fun k _ => ?_)
    rw [hH]; rfl
  · refine (dot_at Cert.ReferenceIdeal.dot_S100000x16_S16x64_S100000x64_1_0_0_1_n_n rfl H tW2 n q).trans (Finset.sum_congr rfl fun k _ => ?_)
    rw [hH]; rfl

end Cert.Gcn

end
-- ==== Proof.Scale.lean ====
/-
  Two facts about the edge data that the algebra needs.

  (1) Every node's scale is a real number. The degree is zero plus a finite sum of ones, a real r; where r > 0 the
      scale is its reciprocal square root, the real (√r)⁻¹, and elsewhere it is zero.
  (2) On an index word e summed at node n the reference's second lookup reads row n. The target word, read signed,
      is n ≥ 0, so it is not wrapped, and n < 100000, so it is not clamped.
-/
import proofs.«150358_j45518063403398_2_alg».proof.Proof.Entry
import proofs.«150358_j45518063403398_2_alg».proof.Proof.LibRealSums

set_option maxRecDepth 16384

noncomputable section

open scoped BigOperators

namespace Cert.Gcn

open Idealize.ShloMosaic Idealize.ShloMosaic.ValueIdx Cert.Lib.RowGatherScatter Cert.Lib.RealSums

variable (ei : IVec ⟨2, ![2, 3200000]⟩ 32)

/-- A length-3300000 vector as a column, read at (e, 0): the vector at e. -/
theorem asCol_apply {α : Type} (v : (⟨1, ![3300000]⟩ : Shape).Idx → α) (e : Fin 3300000) (u : Fin 1) :
    asCol v (ix2 e u) = v (ix1 e) := by
  unfold asCol
  refine broadcastInDim_apply ![0] _ v (ix2 e u) (ix1 e) (fun a => ?_)
  match a with
  | ⟨0, _⟩ =>
    show e.val = if 3300000 = 1 then 0 else e.val
    split_ifs with h
    · omega
    · rfl

/-- A float scatter-add of real updates into a real operand is real at every entry: the entry plus a finite sum of
    updates. -/
theorem scatterAdd_real {s si su : Shape} (d : ScatterDims s si su) {w : ℕ} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  unfold Host.scatterAdd
  rw [Ideal.hostScatterAdd_def]
  exact IsReal.add (hx i) (IsReal.sum _ _ fun j _ => hu j)

/-- The degree of a node is a real number: zero plus a finite sum of ones. -/
theorem deg_real (n : Fin 100000) : IsReal (deg ei (ix1 n)) :=
  scatterAdd_real _ _ _ _ (fun i => by rw [zeros_at]; exact IsReal.zero)
    (fun j => by rw [broadcastInDim_scalar_apply, constant_apply, Ideal.ofBits_one_f32]; exact IsReal.one) (ix1 n)

/-- Over plain extended reals: the reciprocal square root of a real d where d > 0, zero elsewhere, is a real. -/
theorem select_rsqrt_real (d z z' : EReal) (hd : IsReal d) (hz : z = 0) (hz' : z' = 0) :
    IsReal (Scalar.select (Ideal.cmp .ogt d z) (Ideal.rsqrt d) z') := by
  subst hz hz'
  obtain ⟨r, rfl⟩ := hd
  by_cases h : (0 : EReal) < (r : EReal)
  · have hc : Ideal.cmp .ogt (r : EReal) 0 = 1#1 := by simp [Ideal.cmp, h]
    have hr0 : 0 < r := by exact_mod_cast h
    rw [hc, Ideal.rsqrt_coe, if_neg (not_lt.2 hr0.le), if_neg hr0.ne']
    exact ⟨_, rfl⟩
  · have hc : Ideal.cmp .ogt (r : EReal) 0 = 0#1 := by simp [Ideal.cmp, h]
    rw [hc]
    exact IsReal.zero

/-- The same for arrays, at one index, for ANY array `dg` in the degree's place. -/
theorem select_rsqrt_vec_real {s : Shape} (dg Z Z' : FVec Ideal s .f32) (i : s.Idx) (hd : IsReal (dg i)) (hz : Z i = 0)
    (hz' : Z' i = 0) : IsReal (select (cmpf (F := Ideal) .ogt dg Z) (Host.rsqrt dg) Z' i) := by
  rw [select_apply, cmpf_apply]
  exact select_rsqrt_real (dg i) (Z i) (Z' i) hd hz hz'

/-- (1) The scale of a node is a real number. -/
theorem sc_real (n : Fin 100000) : IsReal (sc ei n) := by
  show IsReal (isq ei (ix1 n))
  unfold isq
  exact select_rsqrt_vec_real (deg ei) _ _ (ix1 n) (deg_real ei n) (zeros_at _ _) (zeros_at _ _)

/-- (2) On an index word summed at n, the clamped target row is n. -/
theorem tgt_eq (n : Fin 100000) (e : Fin 3300000) (he : e ∈ into ei n) : tgt ei e = n := by
  have h : (colv ei (ix1 e)).toInt = (n.val : ℤ) := by
    have h0 := (Finset.mem_filter.1 he).2
    rwa [asCol_apply] at h0
  have hnorm : normIdx (colv ei) (ix1 e) = colv ei (ix1 e) := by
    unfold normIdx
    rw [select_apply]
    have hlt : cmpi .slt (colv ei) (broadcastInDim Cert.ReferenceIdeal.S3300000 ![] Cert.ReferenceIdeal.Facts₀.bcast_S_S3300000
        (constantI Cert.ReferenceIdeal.S_ 32 0#32)) (ix1 e) = 0#1 := by
      show BitVec.ofBool ((colv ei (ix1 e)).slt (broadcastInDim Cert.ReferenceIdeal.S3300000 ![]
        Cert.ReferenceIdeal.Facts₀.bcast_S_S3300000 (constantI Cert.ReferenceIdeal.S_ 32 0#32) (ix1 e))) = 0#1
      rw [broadcastInDim_scalar_apply]
      show BitVec.ofBool ((colv ei (ix1 e)).slt 0#32) = 0#1
      have : (colv ei (ix1 e)).slt 0#32 = false := by
        rw [BitVec.slt, h]
        simp
      rw [this]; rfl
    rw [hlt]
    rfl
  unfold tgt
  rw [asCol_apply, hnorm]
  unfold srcRow
  apply Fin.ext
  show min (colv ei (ix1 e)).toInt.toNat (100000 - 1) = n.val
  rw [h, Int.toNat_natCast]
  have := n.isLt
  omega

end Cert.Gcn

end
-- ==== Proof.Equal.lean ====
/-
  The two results are one function of the arguments when every entry of every float input is a real number:
  entry by entry the kernel's composition is `kOut` and the reference's `rOut` of the same edge data and the same
  matrices (Entry.lean), every node's scale is real and the reference's second scale lookup on an edge summed at n
  reads n (Scale.lean), and under those conditions `kOut = rOut` (Bridge.lean).
-/
import proofs.«150358_j45518063403398_2_alg».proof.Proof.Scale

set_option maxRecDepth 16384

noncomputable section

namespace Cert.Gcn

open Idealize.ShloMosaic Idealize.ShloMosaic.ValueIdx Cert.Lib.RealSums

theorem kerOut_eq_refOut (ei : IVec ⟨2, ![2, 3200000]⟩ 32)
    (x : FVec Ideal ⟨2, ![100000, 128]⟩ .f32) (W1 : FVec Ideal ⟨2, ![128, 16]⟩ .f32) (b1 : FVec Ideal ⟨1, ![16]⟩ .f32)
    (W2 : FVec Ideal ⟨2, ![16, 64]⟩ .f32) (b2 : FVec Ideal ⟨1, ![64]⟩ .f32) (tW1 : FVec Ideal ⟨2, ![128, 16]⟩ .f32)
    (tb1 : FVec Ideal ⟨1, ![16]⟩ .f32) (tW2 : FVec Ideal ⟨2, ![16, 64]⟩ .f32) (tb2 : FVec Ideal ⟨1, ![64]⟩ .f32)
    (hx : ∀ i, IsReal (x i)) (hW1 : ∀ i, IsReal (W1 i)) (hb1 : ∀ i, IsReal (b1 i)) (hW2 : ∀ i, IsReal (W2 i))
    (htW1 : ∀ i, IsReal (tW1 i)) (htb1 : ∀ i, IsReal (tb1 i)) :
    kerOut ei x W1 b1 W2 b2 tW1 tb1 tW2 tb2 = refOut ei x W1 b1 W2 b2 tW1 tb1 tW2 tb2 := by
  funext j
  obtain ⟨n, q, rfl⟩ : ∃ (n : Fin 100000) (q : Fin 64), j = ix2 n q := ⟨j 0, j 1, eq_ix2 j⟩
  rw [kerOut_apply, refOut_apply]
  exact Bridge.kOut_eq_rOut (into ei) (src ei) (tgt ei) (sc ei) (mat x) (mat W1) (mat tW1) (vec b1) (vec tb1) (mat W2) (mat tW2)
    (vec b2) (vec tb2) (tgt_eq ei) (sc_real ei) (fun n i => hx _) (fun i k => hW1 _) (fun i k => htW1 _) (fun k => hb1 _)
    (fun k => htb1 _) (fun k q => hW2 _) n q

end Cert.Gcn

end
-- ==== Proof.lean ====
/-
  A two-layer graph convolution with linear residuals on 100000 nodes and 3200000 edges plus self loops, as three
  pipelined dense kernels with two edge aggregations on the host between them, against the plain formulation.

  Both programs build the same source and target index words, the same degrees and the same per-node scale
  s = deg^(-1/2). The kernel scales a node's projected features by s before summing them over the edges and scales
  the sum by s at the target, and in the second layer aggregates the 16 hidden features BEFORE projecting them to 64
  columns; the reference multiplies every edge's row by s(source)·s(target) and projects BEFORE aggregating. Over the
  extended reals these agree because, under the precondition, every input entry is a real number, hence so is every
  intermediate quantity (the degree is a finite sum of ones and s its reciprocal square root where positive, zero
  elsewhere); then a real factor moves across a finite sum and a projection commutes with the edge sum. Reductions to
  lower-precision formats inside the kernel are the identity on extended reals.

  The kernel's run: each region's output arrays are one whole-array function of the arrays the region finds
  (Region0/1/2.lean), the result buffer walks back through the host stretches and the regions to the launch memory
  (KerChain.lean over KernelRun.lean). The reference's run ends at the same operations composed (RefLink.lean).
  The equality of the two compositions is Equal.lean.
-/
import proofs.«150358_j45518063403398_2_alg».proof.Defs
import proofs.«150358_j45518063403398_2_alg».proof.Proof.Gen.Kernel
import proofs.«150358_j45518063403398_2_alg».proof.Proof.Gen.Kernel.Skeleton
import proofs.«150358_j45518063403398_2_alg».proof.Proof.Gen.Kernel.Launch
import proofs.«150358_j45518063403398_2_alg».proof.Proof.Gen.Kernel.Points
import proofs.«150358_j45518063403398_2_alg».proof.Proof.Gen.Kernel.Frame
import proofs.«150358_j45518063403398_2_alg».proof.Proof.Gen.KernelIdeal
import proofs.«150358_j45518063403398_2_alg».proof.Proof.Gen.KernelIdeal.Skeleton
import proofs.«150358_j45518063403398_2_alg».proof.Proof.Gen.KernelIdeal.Launch
import proofs.«150358_j45518063403398_2_alg».proof.Proof.Gen.KernelIdeal.Points
import proofs.«150358_j45518063403398_2_alg».proof.Proof.Gen.KernelIdeal.Frame
import proofs.«150358_j45518063403398_2_alg».proof.Proof.Gen.ReferenceIdeal
import proofs.«150358_j45518063403398_2_alg».proof.Proof.Gen.Pre_finite_inputs
import proofs.«150358_j45518063403398_2_alg».proof.Proof.KernelRun
import proofs.«150358_j45518063403398_2_alg».proof.Proof.KerChain
import proofs.«150358_j45518063403398_2_alg».proof.Proof.Region0
import proofs.«150358_j45518063403398_2_alg».proof.Proof.Region1
import proofs.«150358_j45518063403398_2_alg».proof.Proof.Region2
import proofs.«150358_j45518063403398_2_alg».proof.Proof.RefRunP
import proofs.«150358_j45518063403398_2_alg».proof.Proof.RefLink
import proofs.«150358_j45518063403398_2_alg».proof.Proof.Finite
import proofs.«150358_j45518063403398_2_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates, nothing faults, and its arguments end unchanged. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealizing pass rewrote no operation of the kernel. -/
theorem preserves : Cert.preserves_Kernel_KernelIdeal := trivial

/-- From memories agreeing on the arguments both programs end with the kernel's composition of the arguments in
    their result buffers: the kernel by its run, the reference because its composition is the same function where
    the inputs are real, which the precondition gives. -/
theorem algebraic : Cert.algebraic_KernelIdeal_ReferenceIdeal := by
  intro m ρ m' ρ' hpre hagree
  refine ⟨fun c => Cert.Gcn.kerOut (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.RunValue.run_result (F := Ideal) m ρ)
    exact Cert.KernelIdeal.Chain.result_eq m ρ Cert.KernelIdeal.RegionValue.region0_scaled
      Cert.KernelIdeal.RegionValue.region0_resid Cert.KernelIdeal.RegionValue.region1_scaled
      Cert.KernelIdeal.RegionValue.region1_resid Cert.KernelIdeal.RegionValue.region2_out c
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    obtain ⟨r0, r2, r3, r4, r5, r6, r7, r8, r9⟩ := Cert.Finite.reals_of_pre _ _ _ _ _ _ _ _ _ _ (hpre c)
    rw [Cert.ReferenceIdeal.RefValue.res_eq, a0, a1, a2, a3, a4, a5, a6, a7, a8, a9]
    exact (Cert.Gcn.kerOut_eq_refOut _ _ _ _ _ _ _ _ _ _ r0 r2 r3 r4 r6 r7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
